-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v0_4)) (v5 : (c : Dev Cert.KernelIdeal.nD) → Buf (Elt Ideal) ((c.tc : Thread Cert.KernelIdeal.nD Cert.KernelIdeal.τ).loc Cert.KernelIdeal.main_v0_5)) (v6 : (c : Dev Cert.KernelIdeal.nD) → Buf (Elt Ideal) ((c.tc : Thread Cert.KernelIdeal.nD Cert.KernelIdeal.τ).loc Cert.KernelIdeal.main_v0_6)) (v7 : (c : Dev Cert.KernelIdeal.nD) → Buf (Elt Ideal) ((c.tc : Thread Cert.KernelIdeal.nD Cert.KernelIdeal.τ).loc Cert.KernelIdeal.main_v0_7)) (v8 : (c : Dev Cert.KernelIdeal.nD) → Buf (Elt Ideal) ((c.tc : Thread Cert.KernelIdeal.nD Cert.KernelIdeal.τ).loc Cert.KernelIdeal.main_v0_8)) (v9 : (c : Dev Cert.KernelIdeal.nD) → Buf (Elt Ideal) ((c.tc : Thread Cert.KernelIdeal.nD Cert.KernelIdeal.τ).loc Cert.KernelIdeal.main_v0_9)) (v10 : (c : Dev Cert.KernelIdeal.nD) → Buf (Elt Ideal) ((c.tc : Thread Cert.KernelIdeal.nD Cert.KernelIdeal.τ).loc Cert.KernelIdeal.main_v0_10)) (v11 : (c : Dev Cert.KernelIdeal.nD) → Buf (Elt Ideal) ((c.tc : Thread Cert.KernelIdeal.nD Cert.KernelIdeal.τ).loc Cert.KernelIdeal.main_v0_11)) (v12 : (c : Dev Cert.KernelIdeal.nD) → Buf (Elt Ideal) ((c.tc : Thread Cert.KernelIdeal.nD Cert.KernelIdeal.τ).loc Cert.KernelIdeal.main_v0_12)) (v13 : (c : Dev Cert.KernelIdeal.nD) → Buf (Elt Ideal) ((c.tc : Thread Cert.KernelIdeal.nD Cert.KernelIdeal.τ).loc Cert.KernelIdeal.main_v0_13)) (v14 : (c : Dev Cert.KernelIdeal.nD) → Buf (Elt Ideal) ((c.tc : Thread Cert.KernelIdeal.nD Cert.KernelIdeal.τ).loc Cert.KernelIdeal.main_v0_14)) (v15 : (c : Dev Cert.KernelIdeal.nD) → Buf (Elt Ideal) ((c.tc : Thread Cert.KernelIdeal.nD Cert.KernelIdeal.τ).loc Cert.KernelIdeal.main_v0_15)) (v16 : (c : Dev Cert.KernelIdeal.nD) → Buf (Elt Ideal) ((c.tc : Thread Cert.KernelIdeal.nD Cert.KernelIdeal.τ).loc Cert.KernelIdeal.main_v0_16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_v0_4) = v4 c
          ∧ r.2.mem ((c.tc : Thread Cert.KernelIdeal.nD Cert.KernelIdeal.τ).loc Cert.KernelIdeal.main_v0_5) = v5 c
          ∧ r.2.mem ((c.tc : Thread Cert.KernelIdeal.nD Cert.KernelIdeal.τ).loc Cert.KernelIdeal.main_v0_6) = v6 c
          ∧ r.2.mem ((c.tc : Thread Cert.KernelIdeal.nD Cert.KernelIdeal.τ).loc Cert.KernelIdeal.main_v0_7) = v7 c
          ∧ r.2.mem ((c.tc : Thread Cert.KernelIdeal.nD Cert.KernelIdeal.τ).loc Cert.KernelIdeal.main_v0_8) = v8 c
          ∧ r.2.mem ((c.tc : Thread Cert.KernelIdeal.nD Cert.KernelIdeal.τ).loc Cert.KernelIdeal.main_v0_9) = v9 c
          ∧ r.2.mem ((c.tc : Thread Cert.KernelIdeal.nD Cert.KernelIdeal.τ).loc Cert.KernelIdeal.main_v0_10) = v10 c
          ∧ r.2.mem ((c.tc : Thread Cert.KernelIdeal.nD Cert.KernelIdeal.τ).loc Cert.KernelIdeal.main_v0_11) = v11 c
          ∧ r.2.mem ((c.tc : Thread Cert.KernelIdeal.nD Cert.KernelIdeal.τ).loc Cert.KernelIdeal.main_v0_12) = v12 c
          ∧ r.2.mem ((c.tc : Thread Cert.KernelIdeal.nD Cert.KernelIdeal.τ).loc Cert.KernelIdeal.main_v0_13) = v13 c
          ∧ r.2.mem ((c.tc : Thread Cert.KernelIdeal.nD Cert.KernelIdeal.τ).loc Cert.KernelIdeal.main_v0_14) = v14 c
          ∧ r.2.mem ((c.tc : Thread Cert.KernelIdeal.nD Cert.KernelIdeal.τ).loc Cert.KernelIdeal.main_v0_15) = v15 c
          ∧ r.2.mem ((c.tc : Thread Cert.KernelIdeal.nD Cert.KernelIdeal.τ).loc Cert.KernelIdeal.main_v0_16) = v16 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_v8) = v1 c
          ∧ r.2.mem ((c.tc : Thread Cert.ReferenceIdeal.nD Cert.ReferenceIdeal.τ).loc Cert.ReferenceIdeal.main_v10) = v2 c
          ∧ r.2.mem ((c.tc : Thread Cert.ReferenceIdeal.nD Cert.ReferenceIdeal.τ).loc Cert.ReferenceIdeal.main_v12) = v3 c
          ∧ r.2.mem ((c.tc : Thread Cert.ReferenceIdeal.nD Cert.ReferenceIdeal.τ).loc Cert.ReferenceIdeal.main_v14) = v4 c
          ∧ r.2.mem ((c.tc : Thread Cert.ReferenceIdeal.nD Cert.ReferenceIdeal.τ).loc Cert.ReferenceIdeal.main_v16) = v5 c
          ∧ r.2.mem ((c.tc : Thread Cert.ReferenceIdeal.nD Cert.ReferenceIdeal.τ).loc Cert.ReferenceIdeal.main_v18) = v6 c
          ∧ r.2.mem ((c.tc : Thread Cert.ReferenceIdeal.nD Cert.ReferenceIdeal.τ).loc Cert.ReferenceIdeal.main_v20) = v7 c
          ∧ r.2.mem ((c.tc : Thread Cert.ReferenceIdeal.nD Cert.ReferenceIdeal.τ).loc Cert.ReferenceIdeal.main_v22) = v8 c
          ∧ r.2.mem ((c.tc : Thread Cert.ReferenceIdeal.nD Cert.ReferenceIdeal.τ).loc Cert.ReferenceIdeal.main_v24) = v9 c
          ∧ r.2.mem ((c.tc : Thread Cert.ReferenceIdeal.nD Cert.ReferenceIdeal.τ).loc Cert.ReferenceIdeal.main_v26) = v10 c
          ∧ r.2.mem ((c.tc : Thread Cert.ReferenceIdeal.nD Cert.ReferenceIdeal.τ).loc Cert.ReferenceIdeal.main_v28) = v11 c
          ∧ r.2.mem ((c.tc : Thread Cert.ReferenceIdeal.nD Cert.ReferenceIdeal.τ).loc Cert.ReferenceIdeal.main_v30) = v12 c
          ∧ r.2.mem ((c.tc : Thread Cert.ReferenceIdeal.nD Cert.ReferenceIdeal.τ).loc Cert.ReferenceIdeal.main_v32) = v13 c
          ∧ r.2.mem ((c.tc : Thread Cert.ReferenceIdeal.nD Cert.ReferenceIdeal.τ).loc Cert.ReferenceIdeal.main_v34) = v14 c
          ∧ r.2.mem ((c.tc : Thread Cert.ReferenceIdeal.nD Cert.ReferenceIdeal.τ).loc Cert.ReferenceIdeal.main_v36) = v15 c
          ∧ r.2.mem ((c.tc : Thread Cert.ReferenceIdeal.nD Cert.ReferenceIdeal.τ).loc Cert.ReferenceIdeal.main_v38) = v16 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x256 : Shape := ⟨2, ![10000, 256]⟩
abbrev S17x256x256 : Shape := ⟨3, ![17, 256, 256]⟩
abbrev S17x256 : Shape := ⟨2, ![17, 256]⟩
abbrev S_ : Shape := ⟨0, ![]⟩

class Facts : Prop where
  bcast_S_S10000x256 : S_.BroadcastsInDim S10000x256 (![] : Fin 0 → Fin S10000x256.rank)
  reducesTo_S10000x256_S_d0_1 : S10000x256.ReducesTo [0, 1] S_
  h_S_ : 0 < S_.numel
  bcast_S_S17x256x256 : S_.BroadcastsInDim S17x256x256 (![] : Fin 0 → Fin S17x256x256.rank)
  reducesTo_S17x256x256_S_d0_1_2 : S17x256x256.ReducesTo [0, 1, 2] S_
  bcast_S_S17x256 : S_.BroadcastsInDim S17x256 (![] : Fin 0 → Fin S17x256.rank)
  reducesTo_S17x256_S_d0_1 : S17x256.ReducesTo [0, 1] S_

variable [Facts]

def fn {F : FTy → Type} [FloatOps F] (main_arg0 : FVec F S10000x256 .f32) (main_arg1 : FVec F S17x256x256 .f32) (main_arg2 : FVec F S17x256 .f32) : IVec S_ 1 :=
  let main_v0 : FVec F S10000x256 .f32 := Host.absf main_arg0
  let main_cst : FVec F S_ .f32 := constant S_ .f32 0x7F800000#32
  let main_v1 : FVec F S10000x256 .f32 := broadcastInDim S10000x256 ![] bcast_S_S10000x256 main_cst
  let main_v2 : IVec S10000x256 1 := cmpf .olt main_v0 main_v1
  let main_c : IVec S_ 1 := constantI S_ 1 1#1
  let main_v3 : IVec S_ 1 := (fun x v => Host.reduce IntOp.andi x v reducesTo_S10000x256_S_d0_1 h_S_) main_v2 main_c
  let main_v4 : FVec F S17x256x256 .f32 := Host.absf main_arg1
  let main_cst_0 : FVec F S_ .f32 := constant S_ .f32 0x7F800000#32
  let main_v5 : FVec F S17x256x256 .f32 := broadcastInDim S17x256x256 ![] bcast_S_S17x256x256 main_cst_0
  let main_v6 : IVec S17x256x256 1 := cmpf .olt main_v4 main_v5
  let main_c_1 : IVec S_ 1 := constantI S_ 1 1#1
  let main_v7 : IVec S_ 1 := (fun x v => Host.reduce IntOp.andi x v reducesTo_S17x256x256_S_d0_1_2 h_S_) main_v6 main_c_1
  let main_v8 : IVec S_ 1 := andi main_v3 main_v7
  let main_v9 : FVec F S17x256 .f32 := Host.absf main_arg2
  let main_cst_2 : FVec F S_ .f32 := constant S_ .f32 0x7F800000#32
  let main_v10 : FVec F S17x256 .f32 := broadcastInDim S17x256 ![] bcast_S_S17x256 main_cst_2
  let main_v11 : IVec S17x256 1 := cmpf .olt main_v9 main_v10
  let main_c_3 : IVec S_ 1 := constantI S_ 1 1#1
  let main_v12 : IVec S_ 1 := (fun x v => Host.reduce IntOp.andi x v reducesTo_S17x256_S_d0_1 h_S_) main_v11 main_c_3
  let main_v13 : IVec S_ 1 := andi main_v8 main_v12
  main_v13
-- ==== Kernel.lean ====
abbrev S10000x256 : Shape := ⟨2, ![10000, 256]⟩
abbrev S17x256x256 : Shape := ⟨3, ![17, 256, 256]⟩
abbrev S17x256 : Shape := ⟨2, ![17, 256]⟩
abbrev S1000x256 : Shape := ⟨2, ![1000, 256]⟩
abbrev S1x256x256 : Shape := ⟨3, ![1, 256, 256]⟩
abbrev S256x256 : Shape := ⟨2, ![256, 256]⟩
abbrev S1x256 : Shape := ⟨2, ![1, 256]⟩
abbrev S256 : Shape := ⟨1, ![256]⟩

abbrev nBuf : Space → Nat
  | .hbm => 20
  | .vmem => 38
  | .smem => 0
  | _ => 0

abbrev bufTy : (tb : Table) → Fin (tcTables nBuf tb) → BufTy
  | .hbm, ⟨0, _⟩ => ⟨S10000x256, .f32⟩
  | .hbm, ⟨1, _⟩ => ⟨S17x256x256, .f32⟩
  | .hbm, ⟨2, _⟩ => ⟨S17x256, .f32⟩
  | .hbm, ⟨3, _⟩ => ⟨S10000x256, .f32⟩
  | .hbm, ⟨4, _⟩ => ⟨S10000x256, .f32⟩
  | .hbm, ⟨5, _⟩ => ⟨S10000x256, .f32⟩
  | .hbm, ⟨6, _⟩ => ⟨S10000x256, .f32⟩
  | .hbm, ⟨7, _⟩ => ⟨S10000x256, .f32⟩
  | .hbm, ⟨8, _⟩ => ⟨S10000x256, .f32⟩
  | .hbm, ⟨9, _⟩ => ⟨S10000x256, .f32⟩
  | .hbm, ⟨10, _⟩ => ⟨S10000x256, .f32⟩
  | .hbm, ⟨11, _⟩ => ⟨S10000x256, .f32⟩
  | .hbm, ⟨12, _⟩ => ⟨S10000x256, .f32⟩
  | .hbm, ⟨13, _⟩ => ⟨S10000x256, .f32⟩
  | .hbm, ⟨14, _⟩ => ⟨S10000x256, .f32⟩
  | .hbm, ⟨15, _⟩ => ⟨S10000x256, .f32⟩
  | .hbm, ⟨16, _⟩ => ⟨S10000x256, .f32⟩
  | .hbm, ⟨17, _⟩ => ⟨S10000x256, .f32⟩
  | .hbm, ⟨18, _⟩ => ⟨S10000x256, .f32⟩
  | .hbm, ⟨19, _⟩ => ⟨S10000x256, .f32⟩
  | .local _ .vmem, ⟨0, _⟩ => ⟨S1000x256, .f32⟩
  | .local _ .vmem, ⟨1, _⟩ => ⟨S1000x256, .f32⟩
  | .local _ .vmem, ⟨2, _⟩ => ⟨S17x256x256, .f32⟩
  | .local _ .vmem, ⟨3, _⟩ => ⟨S17x256, .f32⟩
  | .local _ .vmem, ⟨4, _⟩ => ⟨S1000x256, .f32⟩
  | .local _ .vmem, ⟨5, _⟩ => ⟨S1000x256, .f32⟩
  | .local _ .vmem, ⟨6, _⟩ => ⟨S1000x256, .f32⟩
  | .local _ .vmem, ⟨7, _⟩ => ⟨S1000x256, .f32⟩
  | .local _ .vmem, ⟨8, _⟩ => ⟨S1000x256, .f32⟩
  | .local _ .vmem, ⟨9, _⟩ => ⟨S1000x256, .f32⟩
  | .local _ .vmem, ⟨10, _⟩ => ⟨S1000x256, .f32⟩
  | .local _ .vmem, ⟨11, _⟩ => ⟨S1000x256, .f32⟩
  | .local _ .vmem, ⟨12, _⟩ => ⟨S1000x256, .f32⟩
  | .local _ .vmem, ⟨13, _⟩ => ⟨S1000x256, .f32⟩
  | .local _ .vmem, ⟨14, _⟩ => ⟨S1000x256, .f32⟩
  | .local _ .vmem, ⟨15, _⟩ => ⟨S1000x256, .f32⟩
  | .local _ .vmem, ⟨16, _⟩ => ⟨S1000x256, .f32⟩
  | .local _ .vmem, ⟨17, _⟩ => ⟨S1000x256, .f32⟩
  | .local _ .vmem, ⟨18, _⟩ => ⟨S1000x256, .f32⟩
  | .local _ .vmem, ⟨19, _⟩ => ⟨S1000x256, .f32⟩
  | .local _ .vmem, ⟨20, _⟩ => ⟨S1000x256, .f32⟩
  | .local _ .vmem, ⟨21, _⟩ => ⟨S1000x256, .f32⟩
  | .local _ .vmem, ⟨22, _⟩ => ⟨S1000x256, .f32⟩
  | .local _ .vmem, ⟨23, _⟩ => ⟨S1000x256, .f32⟩
  | .local _ .vmem, ⟨24, _⟩ => ⟨S1000x256, .f32⟩
  | .local _ .vmem, ⟨25, _⟩ => ⟨S1000x256, .f32⟩
  | .local _ .vmem, ⟨26, _⟩ => ⟨S1000x256, .f32⟩
  | .local _ .vmem, ⟨27, _⟩ => ⟨S1000x256, .f32⟩
  | .local _ .vmem, ⟨28, _⟩ => ⟨S1000x256, .f32⟩
  | .local _ .vmem, ⟨29, _⟩ => ⟨S1000x256, .f32⟩
  | .local _ .vmem, ⟨30, _⟩ => ⟨S1000x256, .f32⟩
  | .local _ .vmem, ⟨31, _⟩ => ⟨S1000x256, .f32⟩
  | .local _ .vmem, ⟨32, _⟩ => ⟨S1000x256, .f32⟩
  | .local _ .vmem, ⟨33, _⟩ => ⟨S1000x256, .f32⟩
  | .local _ .vmem, ⟨34, _⟩ => ⟨S1000x256, .f32⟩
  | .local _ .vmem, ⟨35, _⟩ => ⟨S1000x256, .f32⟩
  | .local _ .vmem, ⟨36, _⟩ => ⟨S1000x256, .f32⟩
  | .local _ .vmem, ⟨37, _⟩ => ⟨S1000x256, .f32⟩
  | _, _ => ⟨S10000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev main_v0_4 : Ref sig .tc := ⟨.hbm, 7, rfl⟩
abbrev main_v0_5 : Ref sig .tc := ⟨.hbm, 8, rfl⟩
abbrev main_v0_6 : Ref sig .tc := ⟨.hbm, 9, rfl⟩
abbrev main_v0_7 : Ref sig .tc := ⟨.hbm, 10, rfl⟩
abbrev main_v0_8 : Ref sig .tc := ⟨.hbm, 11, rfl⟩
abbrev main_v0_9 : Ref sig .tc := ⟨.hbm, 12, rfl⟩
abbrev main_v0_10 : Ref sig .tc := ⟨.hbm, 13, rfl⟩
abbrev main_v0_11 : Ref sig .tc := ⟨.hbm, 14, rfl⟩
abbrev main_v0_12 : Ref sig .tc := ⟨.hbm, 15, rfl⟩
abbrev main_v0_13 : Ref sig .tc := ⟨.hbm, 16, rfl⟩
abbrev main_v0_14 : Ref sig .tc := ⟨.hbm, 17, rfl⟩
abbrev main_v0_15 : Ref sig .tc := ⟨.hbm, 18, rfl⟩
abbrev main_v0_16 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg15_1 : Ref sig .tc := ⟨.vmem, 29, rfl⟩
abbrev cc0_stg16_0 : Ref sig .tc := ⟨.vmem, 30, rfl⟩
abbrev cc0_stg16_1 : Ref sig .tc := ⟨.vmem, 31, rfl⟩
abbrev cc0_stg17_0 : Ref sig .tc := ⟨.vmem, 32, rfl⟩
abbrev cc0_stg17_1 : Ref sig .tc := ⟨.vmem, 33, rfl⟩
abbrev cc0_stg18_0 : Ref sig .tc := ⟨.vmem, 34, rfl⟩
abbrev cc0_stg18_1 : Ref sig .tc := ⟨.vmem, 35, rfl⟩
abbrev cc0_stg19_0 : Ref sig .tc := ⟨.vmem, 36, rfl⟩
abbrev cc0_stg19_1 : Ref sig .tc := ⟨.vmem, 37, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27
abbrev cc0_sem15_0 : DmaSem sig := 28
abbrev cc0_sem15_1 : DmaSem sig := 29
abbrev cc0_sem16_0 : DmaSem sig := 30
abbrev cc0_sem16_1 : DmaSem sig := 31
abbrev cc0_sem17_0 : DmaSem sig := 32
abbrev cc0_sem17_1 : DmaSem sig := 33
abbrev cc0_sem18_0 : DmaSem sig := 34
abbrev cc0_sem18_1 : DmaSem sig := 35
abbrev cc0_sem19_0 : DmaSem sig := 36
abbrev cc0_sem19_1 : DmaSem sig := 37

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S17x256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S17x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1000x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1000x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1000x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1000x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1000x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1000x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1000x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1000x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1000x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1000x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1000x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1000x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1000x256 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1000x256 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S1000x256 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S1000x256 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

class Facts₀ : Prop where
  inb_S1000x256_S1000x256_0_0 : ∀ a, (![0, 0] : Fin 2 → Nat) a + S1000x256.size a ≤ S1000x256.size a
  h_S1000x256 : 0 < S1000x256.numel
  inb_S17x256x256_S1x256x256_0_0_0 : ∀ a, (![0, 0, 0] : Fin 3 → Nat) a + S1x256x256.size a ≤ S17x256x256.size a
  h_S1x256x256 : 0 < S1x256x256.numel
  shapeCasts_S1x256x256_S256x256 : S1x256x256.ShapeCasts S256x256
  inb_S17x256_S1x256_0_0 : ∀ a, (![0, 0] : Fin 2 → Nat) a + S1x256.size a ≤ S17x256.size a
  h_S1x256 : 0 < S1x256.numel
  shapeCasts_S1x256_S256 : S1x256.ShapeCasts S256
  shapeCasts_S256_S1x256 : S256.ShapeCasts S1x256
  broadcasts_S1x256_S1000x256 : S1x256.Broadcasts S1000x256
  inb_S17x256x256_S1x256x256_1_0_0 : ∀ a, (![1, 0, 0] : Fin 3 → Nat) a + S1x256x256.size a ≤ S17x256x256.size a
  inb_S17x256_S1x256_1_0 : ∀ a, (![1, 0] : Fin 2 → Nat) a + S1x256.size a ≤ S17x256.size a
  inb_S17x256x256_S1x256x256_2_0_0 : ∀ a, (![2, 0, 0] : Fin 3 → Nat) a + S1x256x256.size a ≤ S17x256x256.size a
  inb_S17x256_S1x256_2_0 : ∀ a, (![2, 0] : Fin 2 → Nat) a + S1x256.size a ≤ S17x256.size a
  inb_S17x256x256_S1x256x256_3_0_0 : ∀ a, (![3, 0, 0] : Fin 3 → Nat) a + S1x256x256.size a ≤ S17x256x256.size a
  inb_S17x256_S1x256_3_0 : ∀ a, (![3, 0] : Fin 2 → Nat) a + S1x256.size a ≤ S17x256.size a
  inb_S17x256x256_S1x256x256_4_0_0 : ∀ a, (![4, 0, 0] : Fin 3 → Nat) a + S1x256x256.size a ≤ S17x256x256.size a
  inb_S17x256_S1x256_4_0 : ∀ a, (![4, 0] : Fin 2 → Nat) a + S1x256.size a ≤ S17x256.size a
  inb_S17x256x256_S1x256x256_5_0_0 : ∀ a, (![5, 0, 0] : Fin 3 → Nat) a + S1x256x256.size a ≤ S17x256x256.size a
  inb_S17x256_S1x256_5_0 : ∀ a, (![5, 0] : Fin 2 → Nat) a + S1x256.size a ≤ S17x256.size a
  inb_S17x256x256_S1x256x256_6_0_0 : ∀ a, (![6, 0, 0] : Fin 3 → Nat) a + S1x256x256.size a ≤ S17x256x256.size a
  inb_S17x256_S1x256_6_0 : ∀ a, (![6, 0] : Fin 2 → Nat) a + S1x256.size a ≤ S17x256.size a
  inb_S17x256x256_S1x256x256_7_0_0 : ∀ a, (![7, 0, 0] : Fin 3 → Nat) a + S1x256x256.size a ≤ S17x256x256.size a
  inb_S17x256_S1x256_7_0 : ∀ a, (![7, 0] : Fin 2 → Nat) a + S1x256.size a ≤ S17x256.size a
  inb_S17x256x256_S1x256x256_8_0_0 : ∀ a, (![8, 0, 0] : Fin 3 → Nat) a + S1x256x256.size a ≤ S17x256x256.size a
  inb_S17x256_S1x256_8_0 : ∀ a, (![8, 0] : Fin 2 → Nat) a + S1x256.size a ≤ S17x256.size a
  inb_S17x256x256_S1x256x256_9_0_0 : ∀ a, (![9, 0, 0] : Fin 3 → Nat) a + S1x256x256.size a ≤ S17x256x256.size a
  inb_S17x256_S1x256_9_0 : ∀ a, (![9, 0] : Fin 2 → Nat) a + S1x256.size a ≤ S17x256.size a
  inb_S17x256x256_S1x256x256_10_0_0 : ∀ a, (![10, 0, 0] : Fin 3 → Nat) a + S1x256x256.size a ≤ S17x256x256.size a
  inb_S17x256_S1x256_10_0 : ∀ a, (![10, 0] : Fin 2 → Nat) a + S1x256.size a ≤ S17x256.size a
  inb_S17x256x256_S1x256x256_11_0_0 : ∀ a, (![11, 0, 0] : Fin 3 → Nat) a + S1x256x256.size a ≤ S17x256x256.size a
  inb_S17x256_S1x256_11_0 : ∀ a, (![11, 0] : Fin 2 → Nat) a + S1x256.size a ≤ S17x256.size a
  inb_S17x256x256_S1x256x256_12_0_0 : ∀ a, (![12, 0, 0] : Fin 3 → Nat) a + S1x256x256.size a ≤ S17x256x256.size a
  inb_S17x256_S1x256_12_0 : ∀ a, (![12, 0] : Fin 2 → Nat) a + S1x256.size a ≤ S17x256.size a
  inb_S17x256x256_S1x256x256_13_0_0 : ∀ a, (![13, 0, 0] : Fin 3 → Nat) a + S1x256x256.size a ≤ S17x256x256.size a
  inb_S17x256_S1x256_13_0 : ∀ a, (![13, 0] : Fin 2 → Nat) a + S1x256.size a ≤ S17x256.size a
  inb_S17x256x256_S1x256x256_14_0_0 : ∀ a, (![14, 0, 0] : Fin 3 → Nat) a + S1x256x256.size a ≤ S17x256x256.size a
  inb_S17x256_S1x256_14_0 : ∀ a, (![14, 0] : Fin 2 → Nat) a + S1x256.size a ≤ S17x256.size a
  inb_S17x256x256_S1x256x256_15_0_0 : ∀ a, (![15, 0, 0] : Fin 3 → Nat) a + S1x256x256.size a ≤ S17x256x256.size a
  inb_S17x256_S1x256_15_0 : ∀ a, (![15, 0] : Fin 2 → Nat) a + S1x256.size a ≤ S17x256.size a
  inb_S17x256x256_S1x256x256_16_0_0 : ∀ a, (![16, 0, 0] : Fin 3 → Nat) a + S1x256x256.size a ≤ S17x256x256.size a
  inb_S17x256_S1x256_16_0 : ∀ a, (![16, 0] : Fin 2 → Nat) a + S1x256.size a ≤ S17x256.size a
  dot_S1000x256_S256x256_S1000x256_1_1_0_0_n_n_wf : DotDims.WF S1000x256 S256x256 S1000x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x256.size a ≤ S10000x256.size a
  hwx0_0 : ∀ i : grid0.Coords, EltTy.bits .f32 = 32 ∨ (Rect.block (s := S10000x256) S1000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S17x256x256.size a ≤ S17x256x256.size a
  hwx0_1 : ∀ i : grid0.Coords, EltTy.bits .f32 = 32 ∨ (Rect.block (s := S17x256x256) S17x256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S17x256.size a ≤ S17x256.size a
  hwx0_2 : ∀ i : grid0.Coords, EltTy.bits .f32 = 32 ∨ (Rect.block (s := S17x256) S17x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1000x256.size a ≤ S10000x256.size a
  hwx0_3 : ∀ i : grid0.Coords, EltTy.bits .f32 = 32 ∨ (Rect.block (s := S10000x256) S1000x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1000x256.size a ≤ S10000x256.size a
  hwx0_4 : ∀ i : grid0.Coords, EltTy.bits .f32 = 32 ∨ (Rect.block (s := S10000x256) S1000x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1000x256.size a ≤ S10000x256.size a
  hwx0_5 : ∀ i : grid0.Coords, EltTy.bits .f32 = 32 ∨ (Rect.block (s := S10000x256) S1000x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1000x256.size a ≤ S10000x256.size a
  hwx0_6 : ∀ i : grid0.Coords, EltTy.bits .f32 = 32 ∨ (Rect.block (s := S10000x256) S1000x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1000x256.size a ≤ S10000x256.size a
  hwx0_7 : ∀ i : grid0.Coords, EltTy.bits .f32 = 32 ∨ (Rect.block (s := S10000x256) S1000x256.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1000x256.size a ≤ S10000x256.size a
  hwx0_8 : ∀ i : grid0.Coords, EltTy.bits .f32 = 32 ∨ (Rect.block (s := S10000x256) S1000x256.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1000x256.size a ≤ S10000x256.size a
  hwx0_9 : ∀ i : grid0.Coords, EltTy.bits .f32 = 32 ∨ (Rect.block (s := S10000x256) S1000x256.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1000x256.size a ≤ S10000x256.size a
  hwx0_10 : ∀ i : grid0.Coords, EltTy.bits .f32 = 32 ∨ (Rect.block (s := S10000x256) S1000x256.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1000x256.size a ≤ S10000x256.size a
  hwx0_11 : ∀ i : grid0.Coords, EltTy.bits .f32 = 32 ∨ (Rect.block (s := S10000x256) S1000x256.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S1000x256.size a ≤ S10000x256.size a
  hwx0_12 : ∀ i : grid0.Coords, EltTy.bits .f32 = 32 ∨ (Rect.block (s := S10000x256) S1000x256.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S1000x256.size a ≤ S10000x256.size a
  hwx0_13 : ∀ i : grid0.Coords, EltTy.bits .f32 = 32 ∨ (Rect.block (s := S10000x256) S1000x256.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S1000x256.size a ≤ S10000x256.size a
  hwx0_14 : ∀ i : grid0.Coords, EltTy.bits .f32 = 32 ∨ (Rect.block (s := S10000x256) S1000x256.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S1000x256.size a ≤ S10000x256.size a
  hwx0_15 : ∀ i : grid0.Coords, EltTy.bits .f32 = 32 ∨ (Rect.block (s := S10000x256) S1000x256.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S1000x256.size a ≤ S10000x256.size a
  hwx0_16 : ∀ i : grid0.Coords, EltTy.bits .f32 = 32 ∨ (Rect.block (s := S10000x256) S1000x256.size (cc0_transform_16 i) (hinb0_16 i)).WholeWords (EltTy.packing .f32)
  hstage0_17 : ∀ j, (stage0_17 j).IsWhole
  nbuf0_17 : grid0.bufCount reads0_17 false = 2
  hreads0_17 : ∀ i i' : grid0.Coords, (∀ a, reads0_17 a = true → i a = i' a) → cc0_transform_17 i = cc0_transform_17 i'
  hinb0_17 : ∀ (i : grid0.Coords) a, (cc0_transform_17 i a + 1) * S1000x256.size a ≤ S10000x256.size a
  hwx0_17 : ∀ i : grid0.Coords, EltTy.bits .f32 = 32 ∨ (Rect.block (s := S10000x256) S1000x256.size (cc0_transform_17 i) (hinb0_17 i)).WholeWords (EltTy.packing .f32)
  hstage0_18 : ∀ j, (stage0_18 j).IsWhole
  nbuf0_18 : grid0.bufCount reads0_18 false = 2
  hreads0_18 : ∀ i i' : grid0.Coords, (∀ a, reads0_18 a = true → i a = i' a) → cc0_transform_18 i = cc0_transform_18 i'
  hinb0_18 : ∀ (i : grid0.Coords) a, (cc0_transform_18 i a + 1) * S1000x256.size a ≤ S10000x256.size a
  hwx0_18 : ∀ i : grid0.Coords, EltTy.bits .f32 = 32 ∨ (Rect.block (s := S10000x256) S1000x256.size (cc0_transform_18 i) (hinb0_18 i)).WholeWords (EltTy.packing .f32)
  hstage0_19 : ∀ j, (stage0_19 j).IsWhole
  nbuf0_19 : grid0.bufCount reads0_19 false = 2
  hreads0_19 : ∀ i i' : grid0.Coords, (∀ a, reads0_19 a = true → i a = i' a) → cc0_transform_19 i = cc0_transform_19 i'
  hinb0_19 : ∀ (i : grid0.Coords) a, (cc0_transform_19 i a + 1) * S1000x256.size a ≤ S10000x256.size a
  hwx0_19 : ∀ i : grid0.Coords, EltTy.bits .f32 = 32 ∨ (Rect.block (s := S10000x256) S1000x256.size (cc0_transform_19 i) (hinb0_19 i)).WholeWords (EltTy.packing .f32)

variable [Facts₀]

def dot_S1000x256_S256x256_S1000x256_1_1_0_0_n_n : DotDims S1000x256 S256x256 S1000x256 where
  lhsContracting := [1]
  rhsContracting := [1]
  lhsNonContracting := [0]
  rhsNonContracting := [0]
  lhsBatch := []
  rhsBatch := []
  wf := dot_S1000x256_S256x256_S1000x256_1_1_0_0_n_n_wf

abbrev win0_0 : Pipeline.Window sig grid0 :=
  Pipeline.Window.ofSpec (Memref.whole main_arg0) S1000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S17x256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S17x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S1000x256.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S1000x256.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_2) S1000x256.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v0_3) S1000x256.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v0_4) S1000x256.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v0_5) S1000x256.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v0_6) S1000x256.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v0_7) S1000x256.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v0_8) S1000x256.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v0_9) S1000x256.size cc0_transform_12 reads0_12 true false 2 stage0_12 sem0_12
    hrank0 hreads0_12 hinb0_12 nbuf0_12 (Memref.isWhole_whole _) hwx0_12 hstage0_12

abbrev win0_13 : Pipeline.Window sig grid0 :=
  Pipeline.Window.ofSpec (Memref.whole main_v0_10) S1000x256.size cc0_transform_13 reads0_13 true false 2 stage0_13 sem0_13
    hrank0 hreads0_13 hinb0_13 nbuf0_13 (Memref.isWhole_whole _) hwx0_13 hstage0_13

abbrev win0_14 : Pipeline.Window sig grid0 :=
  Pipeline.Window.ofSpec (Memref.whole main_v0_11) S1000x256.size cc0_transform_14 reads0_14 true false 2 stage0_14 sem0_14
    hrank0 hreads0_14 hinb0_14 nbuf0_14 (Memref.isWhole_whole _) hwx0_14 hstage0_14

abbrev win0_15 : Pipeline.Window sig grid0 :=
  Pipeline.Window.ofSpec (Memref.whole main_v0_12) S1000x256.size cc0_transform_15 reads0_15 true false 2 stage0_15 sem0_15
    hrank0 hreads0_15 hinb0_15 nbuf0_15 (Memref.isWhole_whole _) hwx0_15 hstage0_15

abbrev win0_16 : Pipeline.Window sig grid0 :=
  Pipeline.Window.ofSpec (Memref.whole main_v0_13) S1000x256.size cc0_transform_16 reads0_16 true false 2 stage0_16 sem0_16
    hrank0 hreads0_16 hinb0_16 nbuf0_16 (Memref.isWhole_whole _) hwx0_16 hstage0_16

abbrev win0_17 : Pipeline.Window sig grid0 :=
  Pipeline.Window.ofSpec (Memref.whole main_v0_14) S1000x256.size cc0_transform_17 reads0_17 true false 2 stage0_17 sem0_17
    hrank0 hreads0_17 hinb0_17 nbuf0_17 (Memref.isWhole_whole _) hwx0_17 hstage0_17

abbrev win0_18 : Pipeline.Window sig grid0 :=
  Pipeline.Window.ofSpec (Memref.whole main_v0_15) S1000x256.size cc0_transform_18 reads0_18 true false 2 stage0_18 sem0_18
    hrank0 hreads0_18 hinb0_18 nbuf0_18 (Memref.isWhole_whole _) hwx0_18 hstage0_18

abbrev win0_19 : Pipeline.Window sig grid0 :=
  Pipeline.Window.ofSpec (Memref.whole main_v0_16) S1000x256.size cc0_transform_19 reads0_19 true false 2 stage0_19 sem0_19
    hrank0 hreads0_19 hinb0_19 nbuf0_19 (Memref.isWhole_whole _) hwx0_19 hstage0_19

abbrev win0 : Fin 20 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | ⟨_ + 20, h⟩ => absurd h (Nat.not_lt.2 (Nat.le_add_left _ _))
abbrev spec0 : Fin 20 → Pipeline.WinSpec sig grid0.rank := fun w => (win0 w).toWinSpec

class Facts : Prop extends Facts₀ where

variable [Facts]
-- ==== ReferenceIdeal.lean ====
abbrev S10000x256 : Shape := ⟨2, ![10000, 256]⟩
abbrev S17x256x256 : Shape := ⟨3, ![17, 256, 256]⟩
abbrev S17x256 : Shape := ⟨2, ![17, 256]⟩
abbrev S17x256x10000 : Shape := ⟨3, ![17, 256, 10000]⟩
abbrev S17x10000x256 : Shape := ⟨3, ![17, 10000, 256]⟩
abbrev S17x1x256 : Shape := ⟨3, ![17, 1, 256]⟩
abbrev S1x10000x256 : Shape := ⟨3, ![1, 10000, 256]⟩

abbrev nBuf : Space → Nat
  | .hbm => 42
  | .vmem => 0
  | .smem => 0
  | _ => 0

abbrev bufTy : (tb : Table) → Fin (tcTables nBuf tb) → BufTy
  | .hbm, ⟨0, _⟩ => ⟨S10000x256, .f32⟩
  | .hbm, ⟨1, _⟩ => ⟨S17x256x256, .f32⟩
  | .hbm, ⟨2, _⟩ => ⟨S17x256, .f32⟩
  | .hbm, ⟨3, _⟩ => ⟨S17x256x10000, .f32⟩
  | .hbm, ⟨4, _⟩ => ⟨S17x10000x256, .f32⟩
  | .hbm, ⟨5, _⟩ => ⟨S17x1x256, .f32⟩
  | .hbm, ⟨6, _⟩ => ⟨S17x10000x256, .f32⟩
  | .hbm, ⟨7, _⟩ => ⟨S17x10000x256, .f32⟩
  | .hbm, ⟨8, _⟩ => ⟨S1x10000x256, .f32⟩
  | .hbm, ⟨9, _⟩ => ⟨S10000x256, .f32⟩
  | .hbm, ⟨10, _⟩ => ⟨S1x10000x256, .f32⟩
  | .hbm, ⟨11, _⟩ => ⟨S10000x256, .f32⟩
  | .hbm, ⟨12, _⟩ => ⟨S1x10000x256, .f32⟩
  | .hbm, ⟨13, _⟩ => ⟨S10000x256, .f32⟩
  | .hbm, ⟨14, _⟩ => ⟨S1x10000x256, .f32⟩
  | .hbm, ⟨15, _⟩ => ⟨S10000x256, .f32⟩
  | .hbm, ⟨16, _⟩ => ⟨S1x10000x256, .f32⟩
  | .hbm, ⟨17, _⟩ => ⟨S10000x256, .f32⟩
  | .hbm, ⟨18, _⟩ => ⟨S1x10000x256, .f32⟩
  | .hbm, ⟨19, _⟩ => ⟨S10000x256, .f32⟩
  | .hbm, ⟨20, _⟩ => ⟨S1x10000x256, .f32⟩
  | .hbm, ⟨21, _⟩ => ⟨S10000x256, .f32⟩
  | .hbm, ⟨22, _⟩ => ⟨S1x10000x256, .f32⟩
  | .hbm, ⟨23, _⟩ => ⟨S10000x256, .f32⟩
  | .hbm, ⟨24, _⟩ => ⟨S1x10000x256, .f32⟩
  | .hbm, ⟨25, _⟩ => ⟨S10000x256, .f32⟩
  | .hbm, ⟨26, _⟩ => ⟨S1x10000x256, .f32⟩
  | .hbm, ⟨27, _⟩ => ⟨S10000x256, .f32⟩
  | .hbm, ⟨28, _⟩ => ⟨S1x10000x256, .f32⟩
  | .hbm, ⟨29, _⟩ => ⟨S10000x256, .f32⟩
  | .hbm, ⟨30, _⟩ => ⟨S1x10000x256, .f32⟩
  | .hbm, ⟨31, _⟩ => ⟨S10000x256, .f32⟩
  | .hbm, ⟨32, _⟩ => ⟨S1x10000x256, .f32⟩
  | .hbm, ⟨33, _⟩ => ⟨S10000x256, .f32⟩
  | .hbm, ⟨34, _⟩ => ⟨S1x10000x256, .f32⟩
  | .hbm, ⟨35, _⟩ => ⟨S10000x256, .f32⟩
  | .hbm, ⟨36, _⟩ => ⟨S1x10000x256, .f32⟩
  | .hbm, ⟨37, _⟩ => ⟨S10000x256, .f32⟩
  | .hbm, ⟨38, _⟩ => ⟨S1x10000x256, .f32⟩
  | .hbm, ⟨39, _⟩ => ⟨S10000x256, .f32⟩
  | .hbm, ⟨40, _⟩ => ⟨S1x10000x256, .f32⟩
  | .hbm, ⟨41, _⟩ => ⟨S10000x256, .f32⟩
  | _, _ => ⟨S10000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_v32 : Ref sig .tc := ⟨.hbm, 35, rfl⟩
abbrev main_v33 : Ref sig .tc := ⟨.hbm, 36, rfl⟩
abbrev main_v34 : Ref sig .tc := ⟨.hbm, 37, rfl⟩
abbrev main_v35 : Ref sig .tc := ⟨.hbm, 38, rfl⟩
abbrev main_v36 : Ref sig .tc := ⟨.hbm, 39, rfl⟩
abbrev main_v37 : Ref sig .tc := ⟨.hbm, 40, rfl⟩
abbrev main_v38 : Ref sig .tc := ⟨.hbm, 41, rfl⟩

abbrev nD : Nat := 1
abbrev τ : Topo := Topo.v7x

variable {F : FTy → Type} [FloatOps F]

class Facts₀ : Prop where
  transposes_S17x256x10000_S17x10000x256_0_2_1 : S17x256x10000.Transposes [0, 2, 1] S17x10000x256
  bcast_S17x256_S17x1x256_0_2 : S17x256.BroadcastsInDim S17x1x256 (![0, 2] : Fin 2 → Fin S17x1x256.rank)
  bcast_S17x1x256_S17x10000x256_0_1_2 : S17x1x256.BroadcastsInDim S17x10000x256 (![0, 1, 2] : Fin 3 → Fin S17x10000x256.rank)
  slices_S17x10000x256_S1x10000x256_0_0_0 : S17x10000x256.Slices ![0, 0, 0] S1x10000x256
  shapeCasts_S1x10000x256_S10000x256 : S1x10000x256.ShapeCasts S10000x256
  slices_S17x10000x256_S1x10000x256_1_0_0 : S17x10000x256.Slices ![1, 0, 0] S1x10000x256
  slices_S17x10000x256_S1x10000x256_2_0_0 : S17x10000x256.Slices ![2, 0, 0] S1x10000x256
  slices_S17x10000x256_S1x10000x256_3_0_0 : S17x10000x256.Slices ![3, 0, 0] S1x10000x256
  slices_S17x10000x256_S1x10000x256_4_0_0 : S17x10000x256.Slices ![4, 0, 0] S1x10000x256
  slices_S17x10000x256_S1x10000x256_5_0_0 : S17x10000x256.Slices ![5, 0, 0] S1x10000x256
  slices_S17x10000x256_S1x10000x256_6_0_0 : S17x10000x256.Slices ![6, 0, 0] S1x10000x256
  slices_S17x10000x256_S1x10000x256_7_0_0 : S17x10000x256.Slices ![7, 0, 0] S1x10000x256
  slices_S17x10000x256_S1x10000x256_8_0_0 : S17x10000x256.Slices ![8, 0, 0] S1x10000x256
  slices_S17x10000x256_S1x10000x256_9_0_0 : S17x10000x256.Slices ![9, 0, 0] S1x10000x256
  slices_S17x10000x256_S1x10000x256_10_0_0 : S17x10000x256.Slices ![10, 0, 0] S1x10000x256
  slices_S17x10000x256_S1x10000x256_11_0_0 : S17x10000x256.Slices ![11, 0, 0] S1x10000x256
  slices_S17x10000x256_S1x10000x256_12_0_0 : S17x10000x256.Slices ![12, 0, 0] S1x10000x256
  slices_S17x10000x256_S1x10000x256_13_0_0 : S17x10000x256.Slices ![13, 0, 0] S1x10000x256
  slices_S17x10000x256_S1x10000x256_14_0_0 : S17x10000x256.Slices ![14, 0, 0] S1x10000x256
  slices_S17x10000x256_S1x10000x256_15_0_0 : S17x10000x256.Slices ![15, 0, 0] S1x10000x256
  slices_S17x10000x256_S1x10000x256_16_0_0 : S17x10000x256.Slices ![16, 0, 0] S1x10000x256
  dot_S17x256x256_S10000x256_S17x256x10000_2_1_01_0_n_n_wf : DotDims.WF S17x256x256 S10000x256 S17x256x10000 [2] [1] [0, 1] [0] [] []

variable [Facts₀]

def dot_S17x256x256_S10000x256_S17x256x10000_2_1_01_0_n_n : DotDims S17x256x256 S10000x256 S17x256x10000 where
  lhsContracting := [2]
  rhsContracting := [1]
  lhsNonContracting := [0, 1]
  rhsNonContracting := [0]
  lhsBatch := []
  rhsBatch := []
  wf := dot_S17x256x256_S10000x256_S17x256x10000_2_1_01_0_n_n_wf

class Facts : Prop extends Facts₀ where

variable [Facts]
-- ==== Proof.LibMatmulNT.lean ====
/-
  A reusable lemma: the product of a matrix with the TRANSPOSE of another, read at an entry.

  A `tpu.matmul` whose dimension numbers contract the LAST axis of both operands — an [M,K] left operand and an
  [N,K] right operand, result [M,N] — accumulated into zeros is, at the ideal instance and at the entry (p, q),
      Σ_k lhs[p,k] · rhs[q,k],
  the sum over k : Fin K.  The statement is generic in M, K, N and in the operands' float formats, and holds for any
  dimension record equal to the library's `DotDims.transposedRhs M K N`.
-/
import Idealize.ShloMosaic.PureOps.Ideal.Laws
import Idealize.ShloMosaic.Lib.ValueIdx

noncomputable section

namespace Cert.MatmulNT

open Idealize.ShloMosaic Idealize.ShloMosaic.ValueIdx

variable {M K N : Nat}

/-- The left operand is read in the result's row. -/
theorem lhs_row (j : (⟨2, ![M, N]⟩ : Shape).Idx) (k : (DotDims.transposedRhs M K N).contr.Idx) :
    ((DotDims.transposedRhs M K N).lhsIdx j k 0).val = (j 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from
      List.mem_singleton.mpr rfl)]
  rfl

/-- The right operand is read in the row numbered by the result's column. -/
theorem rhs_row (j : (⟨2, ![M, N]⟩ : Shape).Idx) (k : (DotDims.transposedRhs M K N).contr.Idx) :
    ((DotDims.transposedRhs M K N).rhsIdx j k 0).val = (j 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from
      List.mem_singleton.mpr rfl)]
  rfl

/-- A matrix times the transpose of another, into zeros, at the entry (p, q): Σ_k lhs[p,k] · rhs[q,k]. -/
theorem matmul_zero_apply {φ₁ φ₂ : FTy} (d : DotDims ⟨2, ![M, K]⟩ ⟨2, ![N, K]⟩ ⟨2, ![M, N]⟩)
    (hd : d = DotDims.transposedRhs M K N) (prec : Option ContractPrecision)
    (lhs : FVec Ideal ⟨2, ![M, K]⟩ φ₁) (rhs : FVec Ideal ⟨2, ![N, K]⟩ φ₂) (p : Fin M) (q : Fin N) :
    matmul d prec lhs rhs (constant (F := Ideal) ⟨2, ![M, N]⟩ .f32 0x00000000#32) (ix2 p q)
      = ∑ k : Fin K, lhs (ix2 p k) * rhs (ix2 q k) := by
  subst hd
  simp only [matmul]
  rw [Ideal.matmul_constant_zero_apply,
    ← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 p q)
      ((contrEquiv1 (DotDims.transposedRhs M K N) K rfl rfl).symm k) = ix2 p k :=
    funext fun a => Fin.ext (by
      match a with
      | ⟨0, _⟩ => exact lhs_row _ _
      | ⟨1, _⟩ => exact ((DotDims.transposedRhs M K N).lhsIdx_val_of_single rfl _ _).trans hk)
  have er : (DotDims.transposedRhs M K N).rhsIdx (ix2 p q)
      ((contrEquiv1 (DotDims.transposedRhs M K N) K rfl rfl).symm k) = ix2 q k :=
    funext fun a => Fin.ext (by
      match a with
      | ⟨0, _⟩ => exact rhs_row _ _
      | ⟨1, _⟩ => exact ((DotDims.transposedRhs M K N).rhsIdx_val_of_single rfl _ _).trans hk)
  rw [el, er]

end Cert.MatmulNT

end
-- ==== Proof.LinearStack.lean ====
/-
  Seventeen affine layers over one shared input.

  For each direction k = 0 … 16 the result is the [10000, 256] array
      out_k[n, o] = Σ_i x[n, i] · w[k, o, i] + b[k, o],
  the product of the input with the TRANSPOSE of the k-th weight matrix, plus the k-th bias row spread over all rows.
  `lin k` states it once, index by index, over the extended reals.

  One grid point computes a block of 1000 rows of every direction: `layer` is that block's arithmetic — the matrix
  unit's product, into zeros, of the [1000, 256] block of inputs with the [256, 256] weight slice contracted along the
  LAST axis of both, plus the bias row broadcast down the block — and `layer_apply` reads it at an entry (p, q):
      Σ_i x0[p, i] · x1[0, q, i] + x2[0, q].
  Every direction's payload in the kernel body is this one term (`pay…_eq`, by unfolding).
-/
import proofs.«176759_g40656160424520_cont_8to1_b_390_8_alg».proof.Proof.Gen.KernelIdeal.Skeleton
import proofs.«176759_g40656160424520_cont_8to1_b_390_8_alg».proof.Proof.LibMatmulNT
import Idealize.ShloMosaic.Lib.Pipeline.Value
import Idealize.ShloMosaic.Lib.ValueIdx
import Idealize.ShloMosaic.PureOps.Ideal.Laws

noncomputable section

namespace Cert.LinearStack

open Cert.KernelIdeal Cert.KernelIdeal.Gen Idealize.ShloMosaic Idealize.ShloMosaic.ValueIdx

/-- Direction `k`'s output: row `n` of the input against row `o` of the `k`-th weight matrix, plus `b[k, o]`. -/
def lin (k : Fin 17) (x : Vec Ideal S10000x256 .f32) (w : Vec Ideal S17x256x256 .f32) (b : Vec Ideal S17x256 .f32) :
    Vec Ideal S10000x256 .f32 :=
  fun i => (∑ j : Fin 256, x (ix2 (i 0) j) * w (ix3 k (i 1) j)) + b (ix2 k (i 1))

theorem lin_apply (k : Fin 17) (x : Vec Ideal S10000x256 .f32) (w : Vec Ideal S17x256x256 .f32) (b : Vec Ideal S17x256 .f32)
    (n : Fin 10000) (o : Fin 256) :
    lin k x w b (ix2 n o) = (∑ j : Fin 256, x (ix2 n j) * w (ix3 k o j)) + b (ix2 k o) := rfl

variable {F : FTy → Type} [FloatOps F]

/-- One block of one direction, as the body computes it from its three loads. -/
def layer (v0 : Vec F S1000x256 .f32) (v1 : Vec F S1x256x256 .f32) (v4 : Vec F S1x256 .f32) : FVec F S1000x256 .f32 :=
  addf (matmul dot_S1000x256_S256x256_S1000x256_1_1_0_0_n_n none v0 (shapeCast S256x256 v1 shapeCasts_S1x256x256_S256x256)
      (constant S1000x256 .f32 0x00000000#32))
    (broadcastTo S1000x256 (shapeCast S1x256 (shapeCast S256 v4 shapeCasts_S1x256_S256) shapeCasts_S256_S1x256)
      broadcasts_S1x256_S1000x256)

/-- The weight slice [1, 256, 256] viewed as a matrix [256, 256]: entry (q, j) is the slice's (0, q, j). -/
theorem weight_slice_apply {α : Type} (v1 : S1x256x256.Idx → α) (q j : Fin 256) :
    shapeCast S256x256 v1 shapeCasts_S1x256x256_S256x256 (ix2 q j) = v1 (ix3 0 q j) :=
  shapeCast_apply v1 _ (ix2 q j) (ix3 0 q j) (by
    rw [Shape.rowMajor_val_three, Shape.rowMajor_val_two]
    show (0 * 256 + q.val) * 256 + j.val = q.val * 256 + j.val
    omega)

/-- The bias row [1, 256] flattened, restored and spread over 1000 rows: entry (p, q) is the row's (0, q). -/
theorem bias_spread_apply {α : Type} (v4 : S1x256.Idx → α) (p : Fin 1000) (q : Fin 256) :
    broadcastTo S1000x256 (shapeCast S1x256 (shapeCast S256 v4 shapeCasts_S1x256_S256) shapeCasts_S256_S1x256)
      broadcasts_S1x256_S1000x256 (ix2 p q) = v4 (ix2 0 q) := by
  refine (broadcastTo_apply _ _ (ix2 p q) (ix2 (0 : Fin 1) q) (fun a => match a with
    | ⟨0, _⟩ => by show 0 = (if (1 : Nat) = 1 then 0 else p.val); rw [if_pos rfl]
    | ⟨1, _⟩ => by show q.val = (if (256 : Nat) = 1 then 0 else q.val); rw [if_neg (by decide)])).trans ?_
  refine (shapeCast_apply _ _ (ix2 (0 : Fin 1) q) (ix1 q) (by
    rw [Shape.rowMajor_val_one, Shape.rowMajor_val_two]; show q.val = 0 * 256 + q.val; omega)).trans ?_
  exact shapeCast_apply _ _ (ix1 q) (ix2 (0 : Fin 1) q) (by
    rw [Shape.rowMajor_val_two, Shape.rowMajor_val_one]; show 0 * 256 + q.val = q.val; omega)

/-- The block at an entry: row `p` of the input block against row `q` of the weight slice, plus the bias at `q`. -/
theorem layer_apply (v0 : Vec Ideal S1000x256 .f32) (v1 : Vec Ideal S1x256x256 .f32) (v4 : Vec Ideal S1x256 .f32)
    (p : Fin 1000) (q : Fin 256) :
    layer (F := Ideal) v0 v1 v4 (ix2 p q) = (∑ j : Fin 256, v0 (ix2 p j) * v1 (ix3 0 q j)) + v4 (ix2 0 q) := by
  unfold layer
  refine (addf_apply _ _ (ix2 p q)).trans ?_
  refine congrArg₂ (· + ·) ?_ (bias_spread_apply v4 p q)
  refine (Cert.MatmulNT.matmul_zero_apply dot_S1000x256_S256x256_S1000x256_1_1_0_0_n_n rfl none v0 _ p q).trans ?_
  exact Finset.sum_congr rfl fun j _ => congrArg (v0 (ix2 p j) * ·) (weight_slice_apply v1 q j)

/-! Each direction's payload in the body is `layer` of its loads. -/
theorem pay2_eq (v0 : Vec F S1000x256 .f32) (v1 : Vec F S1x256x256 .f32) (v4 : Vec F S1x256 .f32) : k0_pay2 v0 v1 v4 = layer v0 v1 v4 := rfl
theorem pay3_eq (v0 : Vec F S1000x256 .f32) (v1 : Vec F S1x256x256 .f32) (v4 : Vec F S1x256 .f32) : k0_pay3 v0 v1 v4 = layer v0 v1 v4 := rfl
theorem pay4_eq (v0 : Vec F S1000x256 .f32) (v1 : Vec F S1x256x256 .f32) (v4 : Vec F S1x256 .f32) : k0_pay4 v0 v1 v4 = layer v0 v1 v4 := rfl
theorem pay5_eq (v0 : Vec F S1000x256 .f32) (v1 : Vec F S1x256x256 .f32) (v4 : Vec F S1x256 .f32) : k0_pay5 v0 v1 v4 = layer v0 v1 v4 := rfl
theorem pay6_eq (v0 : Vec F S1000x256 .f32) (v1 : Vec F S1x256x256 .f32) (v4 : Vec F S1x256 .f32) : k0_pay6 v0 v1 v4 = layer v0 v1 v4 := rfl
theorem pay7_eq (v0 : Vec F S1000x256 .f32) (v1 : Vec F S1x256x256 .f32) (v4 : Vec F S1x256 .f32) : k0_pay7 v0 v1 v4 = layer v0 v1 v4 := rfl
theorem pay10_eq (v0 : Vec F S1000x256 .f32) (v1 : Vec F S1x256x256 .f32) (v4 : Vec F S1x256 .f32) : k0_pay10 v0 v1 v4 = layer v0 v1 v4 := rfl
theorem pay11_eq (v0 : Vec F S1000x256 .f32) (v1 : Vec F S1x256x256 .f32) (v4 : Vec F S1x256 .f32) : k0_pay11 v0 v1 v4 = layer v0 v1 v4 := rfl
theorem pay12_eq (v0 : Vec F S1000x256 .f32) (v1 : Vec F S1x256x256 .f32) (v4 : Vec F S1x256 .f32) : k0_pay12 v0 v1 v4 = layer v0 v1 v4 := rfl
theorem pay13_eq (v0 : Vec F S1000x256 .f32) (v1 : Vec F S1x256x256 .f32) (v4 : Vec F S1x256 .f32) : k0_pay13 v0 v1 v4 = layer v0 v1 v4 := rfl
theorem pay14_eq (v0 : Vec F S1000x256 .f32) (v1 : Vec F S1x256x256 .f32) (v4 : Vec F S1x256 .f32) : k0_pay14 v0 v1 v4 = layer v0 v1 v4 := rfl
theorem pay15_eq (v0 : Vec F S1000x256 .f32) (v1 : Vec F S1x256x256 .f32) (v4 : Vec F S1x256 .f32) : k0_pay15 v0 v1 v4 = layer v0 v1 v4 := rfl
theorem pay16_eq (v0 : Vec F S1000x256 .f32) (v1 : Vec F S1x256x256 .f32) (v4 : Vec F S1x256 .f32) : k0_pay16 v0 v1 v4 = layer v0 v1 v4 := rfl
theorem pay17_eq (v0 : Vec F S1000x256 .f32) (v1 : Vec F S1x256x256 .f32) (v4 : Vec F S1x256 .f32) : k0_pay17 v0 v1 v4 = layer v0 v1 v4 := rfl
theorem pay18_eq (v0 : Vec F S1000x256 .f32) (v1 : Vec F S1x256x256 .f32) (v4 : Vec F S1x256 .f32) : k0_pay18 v0 v1 v4 = layer v0 v1 v4 := rfl
theorem pay9_eq (v0 : Vec F S1000x256 .f32) (v1 : Vec F S1x256x256 .f32) (v4 : Vec F S1x256 .f32) : k0_pay9 (k0_pay8 v0 v1) v4 = layer v0 v1 v4 := rfl
theorem pay1_eq (v0 : Vec F S1000x256 .f32) (v1 : Vec F S1x256x256 .f32) (v4 : Vec F S1x256 .f32) : k0_pay1 (k0_pay19 v0 v1) v4 = layer v0 v1 v4 := rfl

end Cert.LinearStack

end
-- ==== Proof.PointEntry.lean ====
/-
  One grid point, one direction, one entry.

  Grid point `t` (of ten) holds rows 1000·t … 1000·t + 999 of the input, and the WHOLE weight and bias stacks: the
  input window moves with the point along the rows, the other two windows never move (`idx_in`, decided over the
  ten points). Direction `k`'s block loads the weight slice at offset (k, 0, 0) and the bias row at offset (k, 0),
  so entry (p, q) of what the point computes for direction `k` is entry (1000·t + p, q) of `lin k` of the three
  argument arrays (`point_entry`), stated for any rectangles with those offsets.
-/
import proofs.«176759_g40656160424520_cont_8to1_b_390_8_alg».proof.Proof.Gen.KernelIdeal.Frame
import proofs.«176759_g40656160424520_cont_8to1_b_390_8_alg».proof.Proof.LinearStack

noncomputable section

namespace Cert.LinearStack

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-- The offsets of a rectangle that starts at the block's corner. -/
theorem zero_offsets : (![0, 0] : Fin 2 → Nat) = fun _ => 0 := funext fun a => by fin_cases a <;> rfl

/-- Where the three input windows sit at point `t`: the input's block index is (t, 0); the stacks' are all zero. -/
theorem idx_in : ∀ t : Fin cfg0.N,
    win0_0.index t (0 : Fin 2) = t.val ∧ win0_0.index t (1 : Fin 2) = 0
    ∧ win0_1.index t (0 : Fin 3) = 0 ∧ win0_1.index t (1 : Fin 3) = 0 ∧ win0_1.index t (2 : Fin 3) = 0
    ∧ win0_2.index t (0 : Fin 2) = 0 ∧ win0_2.index t (1 : Fin 2) = 0 :=
  (by decide +kernel : ∀ t : Fin grid0.N, _)

/-- Entry `j` of direction `k`'s block at point `t` is entry `i` of `lin k` of the argument arrays, when `i` is `j`
    moved down by 1000·t rows. -/
theorem point_entry (k : Fin 17) (c : Dev nD) (t : Fin cfg0.N)
    (off1 : Fin 3 → Nat) (inb1 : ∀ a, off1 a + S1x256x256.size a ≤ S17x256x256.size a)
    (off2 : Fin 2 → Nat) (inb2 : ∀ a, off2 a + S1x256.size a ≤ S17x256.size a)
    (h10 : off1 0 = k.val) (h11 : off1 1 = 0) (h12 : off1 2 = 0) (h20 : off2 0 = k.val) (h21 : off2 1 = 0)
    (j : S1000x256.Idx) (i : S10000x256.Idx)
    (hrow : (i 0).val = t.val * 1000 + (j 0).val) (hcol : (i 1).val = (j 1).val) :
    layer (F := Ideal) (View.ld (iblk m c 0 t) r0_0)
        (View.ld (iblk m c 1 t) (Rect.unit (s := S17x256x256) off1 S1x256x256.size inb1))
        (View.ld (iblk m c 2 t) (Rect.unit (s := S17x256) off2 S1x256.size inb2)) j
      = lin k (V m c main_arg0) (V m c main_arg1) (V m c main_arg2) i := by
  obtain ⟨e00, e01, e10, e11, e12, e20, e21⟩ := idx_in t
  obtain ⟨p, q, rfl⟩ : ∃ (p : Fin 1000) (q : Fin 256), j = ix2 p q := ⟨j 0, j 1, eq_ix2 j⟩
  obtain ⟨n, o, rfl⟩ : ∃ (n : Fin 10000) (o : Fin 256), i = ix2 n o := ⟨i 0, i 1, eq_ix2 i⟩
  have hn : n.val = t.val * 1000 + p.val := hrow
  have ho : o = q := Fin.ext hcol
  subst ho
  rw [layer_apply, lin_apply]
  refine congrArg₂ (· + ·) (Finset.sum_congr rfl fun jj _ => congrArg₂ (· * ·) ?_ ?_) ?_
  · show V m c main_arg0 (((cfg0.win 0).blk t).view.emb (r0_0.idx (ix2 p jj))) = V m c main_arg0 (ix2 n jj)
    refine congrArg (V m c main_arg0) (funext fun a => Fin.ext ?_)
    match a with
    | ⟨0, _⟩ => show win0_0.index t (0 : Fin 2) * 1000 + 1 * (0 + 1 * p.val) = n.val; omega
    | ⟨1, _⟩ => show win0_0.index t (1 : Fin 2) * 256 + 1 * (0 + 1 * jj.val) = jj.val; omega
  · show V m c main_arg1 (((cfg0.win 1).blk t).view.emb
        ((Rect.unit (s := S17x256x256) off1 S1x256x256.size inb1).idx (ix3 0 o jj))) = V m c main_arg1 (ix3 k o jj)
    refine congrArg (V m c main_arg1) (funext fun a => Fin.ext ?_)
    match a with
    | ⟨0, _⟩ => show win0_1.index t (0 : Fin 3) * 17 + 1 * (off1 0 + 1 * 0) = k.val; omega
    | ⟨1, _⟩ => show win0_1.index t (1 : Fin 3) * 256 + 1 * (off1 1 + 1 * o.val) = o.val; omega
    | ⟨2, _⟩ => show win0_1.index t (2 : Fin 3) * 256 + 1 * (off1 2 + 1 * jj.val) = jj.val; omega
  · show V m c main_arg2 (((cfg0.win 2).blk t).view.emb
        ((Rect.unit (s := S17x256) off2 S1x256.size inb2).idx (ix2 0 o))) = V m c main_arg2 (ix2 k o)
    refine congrArg (V m c main_arg2) (funext fun a => Fin.ext ?_)
    match a with
    | ⟨0, _⟩ => show win0_2.index t (0 : Fin 2) * 17 + 1 * (off2 0 + 1 * 0) = k.val; omega
    | ⟨1, _⟩ => show win0_2.index t (1 : Fin 2) * 256 + 1 * (off2 1 + 1 * o.val) = o.val; omega

end Cert.LinearStack

end
-- ==== Proof.Blocks0.lean ====
/-
  From blocks to whole arrays, directions 0 … 5.

  Each output array is written block by block: point `t` of the ten writes rows 1000·t … 1000·t + 999, and what it
  writes is that block of `lin k` of the argument arrays (the point's entry lemma). The ten blocks are disjoint
  and tile the 10000 rows (row `r` belongs to point `r / 1000`), so after the run the array IS `lin k` of the arguments.
-/
import proofs.«176759_g40656160424520_cont_8to1_b_390_8_alg».proof.Proof.Gen.KernelIdeal.Value
import proofs.«176759_g40656160424520_cont_8to1_b_390_8_alg».proof.Proof.PointEntry

noncomputable section

namespace Cert.LinearStack

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

/-! ## Direction 0 (output window 3) -/

/-- The output window's block index at point `t` is (t, 0): point `t` writes rows 1000·t … 1000·t + 999. -/
theorem idx_out3 : ∀ t : Fin cfg0.N, win0_3.index t (0 : Fin 2) = t.val ∧ win0_3.index t (1 : Fin 2) = 0 :=
  (by decide +kernel : ∀ t : Fin grid0.N, _)

/-- What point `t` writes back is block `t` of `lin 0` of the argument arrays. -/
theorem flushed3_eq (c : Dev nD) (t : Fin cfg0.N) :
    (dats m 0 c).flushed 3 t
      = ((cfg0.win 3).blk t).view.read (Elt Ideal) (lin 0 (V m c main_arg0) (V m c main_arg1) (V m c main_arg2)) := by
  rw [Cert.KernelIdeal.Value.flushed3]
  unfold out0_3
  rw [View.canon_unit_zero zero_offsets, pay2_eq]
  obtain ⟨e0, e1⟩ := idx_out3 t
  funext j
  exact point_entry m 0 c t _ _ _ _ rfl rfl rfl rfl rfl j (((cfg0.win 3).blk t).view.emb j)
    (by show win0_3.index t (0 : Fin 2) * 1000 + 1 * (j 0).val = t.val * 1000 + (j 0).val; omega)
    (by show win0_3.index t (1 : Fin 2) * 256 + 1 * (j 1).val = (j 1).val; omega)

/-- An index of the array lies in point `t`'s block iff each coordinate lies in the block's range on its axis. -/
theorem mem_blk3 (t : Fin cfg0.N) (i : S10000x256.Idx) :
    i ∈ ((cfg0.win 3).blk t).view.set ↔ ∀ a : Fin 2, win0_3.index t a * S1000x256.size a ≤ (i a).val
      ∧ (i a).val < win0_3.index t a * S1000x256.size a + S1000x256.size a := by
  show i ∈ ((View.whole main_v0_0).slice (win0_3.rect t)).set ↔ _
  rw [View.set_slice_whole, Rect.mem_set_unit]
  exact Iff.rfl

/-- Row `r` is written by point `r / 1000`: the ten blocks tile the array. -/
theorem cover3 (i : S10000x256.Idx) :
    ∃ t : Fin cfg0.N, (cfg0.win 3).flush t = true ∧ i ∈ ((cfg0.win 3).blk t).view.set := by
  have hi0 : (i 0).val < 10000 := (i 0).isLt
  have hi1 : (i 1).val < 256 := (i 1).isLt
  have hT : (i 0).val / 1000 < 10 := by omega
  obtain ⟨e0, e1⟩ := idx_out3 ⟨(i 0).val / 1000, hT⟩
  have e0' : win0_3.index ⟨(i 0).val / 1000, hT⟩ (0 : Fin 2) = (i 0).val / 1000 := e0
  refine ⟨⟨(i 0).val / 1000, hT⟩, flush0_3 _, ?_⟩
  rw [mem_blk3]
  intro a
  match a with
  | ⟨0, _⟩ =>
    show win0_3.index ⟨(i 0).val / 1000, hT⟩ (0 : Fin 2) * 1000 ≤ (i 0).val
      ∧ (i 0).val < win0_3.index ⟨(i 0).val / 1000, hT⟩ (0 : Fin 2) * 1000 + 1000
    omega
  | ⟨1, _⟩ =>
    show win0_3.index ⟨(i 0).val / 1000, hT⟩ (1 : Fin 2) * 256 ≤ (i 1).val
      ∧ (i 1).val < win0_3.index ⟨(i 0).val / 1000, hT⟩ (1 : Fin 2) * 256 + 256
    omega

/-- After the run the whole array is `lin 0` of the argument arrays. -/
theorem final3 (c : Dev nD) :
    (dats m 0 c).arrAt 3 cfg0.N = lin 0 (V m c main_arg0) (V m c main_arg1) (V m c main_arg2) :=
  (dats m 0 c).arrAt_eq_of_cover 3 (lin 0 (V m c main_arg0) (V m c main_arg1) (V m c main_arg2))
    (fun t _ => flushed3_eq m c t) cover3

/-! ## Direction 1 (output window 4) -/

/-- The output window's block index at point `t` is (t, 0): point `t` writes rows 1000·t … 1000·t + 999. -/
theorem idx_out4 : ∀ t : Fin cfg0.N, win0_4.index t (0 : Fin 2) = t.val ∧ win0_4.index t (1 : Fin 2) = 0 :=
  (by decide +kernel : ∀ t : Fin grid0.N, _)

/-- What point `t` writes back is block `t` of `lin 1` of the argument arrays. -/
theorem flushed4_eq (c : Dev nD) (t : Fin cfg0.N) :
    (dats m 0 c).flushed 4 t
      = ((cfg0.win 4).blk t).view.read (Elt Ideal) (lin 1 (V m c main_arg0) (V m c main_arg1) (V m c main_arg2)) := by
  rw [Cert.KernelIdeal.Value.flushed4]
  unfold out0_4
  rw [View.canon_unit_zero zero_offsets, pay3_eq]
  obtain ⟨e0, e1⟩ := idx_out4 t
  funext j
  exact point_entry m 1 c t _ _ _ _ rfl rfl rfl rfl rfl j (((cfg0.win 4).blk t).view.emb j)
    (by show win0_4.index t (0 : Fin 2) * 1000 + 1 * (j 0).val = t.val * 1000 + (j 0).val; omega)
    (by show win0_4.index t (1 : Fin 2) * 256 + 1 * (j 1).val = (j 1).val; omega)

/-- An index of the array lies in point `t`'s block iff each coordinate lies in the block's range on its axis. -/
theorem mem_blk4 (t : Fin cfg0.N) (i : S10000x256.Idx) :
    i ∈ ((cfg0.win 4).blk t).view.set ↔ ∀ a : Fin 2, win0_4.index t a * S1000x256.size a ≤ (i a).val
      ∧ (i a).val < win0_4.index t a * S1000x256.size a + S1000x256.size a := by
  show i ∈ ((View.whole main_v0_1).slice (win0_4.rect t)).set ↔ _
  rw [View.set_slice_whole, Rect.mem_set_unit]
  exact Iff.rfl

/-- Row `r` is written by point `r / 1000`: the ten blocks tile the array. -/
theorem cover4 (i : S10000x256.Idx) :
    ∃ t : Fin cfg0.N, (cfg0.win 4).flush t = true ∧ i ∈ ((cfg0.win 4).blk t).view.set := by
  have hi0 : (i 0).val < 10000 := (i 0).isLt
  have hi1 : (i 1).val < 256 := (i 1).isLt
  have hT : (i 0).val / 1000 < 10 := by omega
  obtain ⟨e0, e1⟩ := idx_out4 ⟨(i 0).val / 1000, hT⟩
  have e0' : win0_4.index ⟨(i 0).val / 1000, hT⟩ (0 : Fin 2) = (i 0).val / 1000 := e0
  refine ⟨⟨(i 0).val / 1000, hT⟩, flush0_4 _, ?_⟩
  rw [mem_blk4]
  intro a
  match a with
  | ⟨0, _⟩ =>
    show win0_4.index ⟨(i 0).val / 1000, hT⟩ (0 : Fin 2) * 1000 ≤ (i 0).val
      ∧ (i 0).val < win0_4.index ⟨(i 0).val / 1000, hT⟩ (0 : Fin 2) * 1000 + 1000
    omega
  | ⟨1, _⟩ =>
    show win0_4.index ⟨(i 0).val / 1000, hT⟩ (1 : Fin 2) * 256 ≤ (i 1).val
      ∧ (i 1).val < win0_4.index ⟨(i 0).val / 1000, hT⟩ (1 : Fin 2) * 256 + 256
    omega

/-- After the run the whole array is `lin 1` of the argument arrays. -/
theorem final4 (c : Dev nD) :
    (dats m 0 c).arrAt 4 cfg0.N = lin 1 (V m c main_arg0) (V m c main_arg1) (V m c main_arg2) :=
  (dats m 0 c).arrAt_eq_of_cover 4 (lin 1 (V m c main_arg0) (V m c main_arg1) (V m c main_arg2))
    (fun t _ => flushed4_eq m c t) cover4

/-! ## Direction 2 (output window 5) -/

/-- The output window's block index at point `t` is (t, 0): point `t` writes rows 1000·t … 1000·t + 999. -/
theorem idx_out5 : ∀ t : Fin cfg0.N, win0_5.index t (0 : Fin 2) = t.val ∧ win0_5.index t (1 : Fin 2) = 0 :=
  (by decide +kernel : ∀ t : Fin grid0.N, _)

/-- What point `t` writes back is block `t` of `lin 2` of the argument arrays. -/
theorem flushed5_eq (c : Dev nD) (t : Fin cfg0.N) :
    (dats m 0 c).flushed 5 t
      = ((cfg0.win 5).blk t).view.read (Elt Ideal) (lin 2 (V m c main_arg0) (V m c main_arg1) (V m c main_arg2)) := by
  rw [Cert.KernelIdeal.Value.flushed5]
  unfold out0_5
  rw [View.canon_unit_zero zero_offsets, pay4_eq]
  obtain ⟨e0, e1⟩ := idx_out5 t
  funext j
  exact point_entry m 2 c t _ _ _ _ rfl rfl rfl rfl rfl j (((cfg0.win 5).blk t).view.emb j)
    (by show win0_5.index t (0 : Fin 2) * 1000 + 1 * (j 0).val = t.val * 1000 + (j 0).val; omega)
    (by show win0_5.index t (1 : Fin 2) * 256 + 1 * (j 1).val = (j 1).val; omega)

/-- An index of the array lies in point `t`'s block iff each coordinate lies in the block's range on its axis. -/
theorem mem_blk5 (t : Fin cfg0.N) (i : S10000x256.Idx) :
    i ∈ ((cfg0.win 5).blk t).view.set ↔ ∀ a : Fin 2, win0_5.index t a * S1000x256.size a ≤ (i a).val
      ∧ (i a).val < win0_5.index t a * S1000x256.size a + S1000x256.size a := by
  show i ∈ ((View.whole main_v0_2).slice (win0_5.rect t)).set ↔ _
  rw [View.set_slice_whole, Rect.mem_set_unit]
  exact Iff.rfl

/-- Row `r` is written by point `r / 1000`: the ten blocks tile the array. -/
theorem cover5 (i : S10000x256.Idx) :
    ∃ t : Fin cfg0.N, (cfg0.win 5).flush t = true ∧ i ∈ ((cfg0.win 5).blk t).view.set := by
  have hi0 : (i 0).val < 10000 := (i 0).isLt
  have hi1 : (i 1).val < 256 := (i 1).isLt
  have hT : (i 0).val / 1000 < 10 := by omega
  obtain ⟨e0, e1⟩ := idx_out5 ⟨(i 0).val / 1000, hT⟩
  have e0' : win0_5.index ⟨(i 0).val / 1000, hT⟩ (0 : Fin 2) = (i 0).val / 1000 := e0
  refine ⟨⟨(i 0).val / 1000, hT⟩, flush0_5 _, ?_⟩
  rw [mem_blk5]
  intro a
  match a with
  | ⟨0, _⟩ =>
    show win0_5.index ⟨(i 0).val / 1000, hT⟩ (0 : Fin 2) * 1000 ≤ (i 0).val
      ∧ (i 0).val < win0_5.index ⟨(i 0).val / 1000, hT⟩ (0 : Fin 2) * 1000 + 1000
    omega
  | ⟨1, _⟩ =>
    show win0_5.index ⟨(i 0).val / 1000, hT⟩ (1 : Fin 2) * 256 ≤ (i 1).val
      ∧ (i 1).val < win0_5.index ⟨(i 0).val / 1000, hT⟩ (1 : Fin 2) * 256 + 256
    omega

/-- After the run the whole array is `lin 2` of the argument arrays. -/
theorem final5 (c : Dev nD) :
    (dats m 0 c).arrAt 5 cfg0.N = lin 2 (V m c main_arg0) (V m c main_arg1) (V m c main_arg2) :=
  (dats m 0 c).arrAt_eq_of_cover 5 (lin 2 (V m c main_arg0) (V m c main_arg1) (V m c main_arg2))
    (fun t _ => flushed5_eq m c t) cover5

/-! ## Direction 3 (output window 6) -/

/-- The output window's block index at point `t` is (t, 0): point `t` writes rows 1000·t … 1000·t + 999. -/
theorem idx_out6 : ∀ t : Fin cfg0.N, win0_6.index t (0 : Fin 2) = t.val ∧ win0_6.index t (1 : Fin 2) = 0 :=
  (by decide +kernel : ∀ t : Fin grid0.N, _)

/-- What point `t` writes back is block `t` of `lin 3` of the argument arrays. -/
theorem flushed6_eq (c : Dev nD) (t : Fin cfg0.N) :
    (dats m 0 c).flushed 6 t
      = ((cfg0.win 6).blk t).view.read (Elt Ideal) (lin 3 (V m c main_arg0) (V m c main_arg1) (V m c main_arg2)) := by
  rw [Cert.KernelIdeal.Value.flushed6]
  unfold out0_6
  rw [View.canon_unit_zero zero_offsets, pay5_eq]
  obtain ⟨e0, e1⟩ := idx_out6 t
  funext j
  exact point_entry m 3 c t _ _ _ _ rfl rfl rfl rfl rfl j (((cfg0.win 6).blk t).view.emb j)
    (by show win0_6.index t (0 : Fin 2) * 1000 + 1 * (j 0).val = t.val * 1000 + (j 0).val; omega)
    (by show win0_6.index t (1 : Fin 2) * 256 + 1 * (j 1).val = (j 1).val; omega)

/-- An index of the array lies in point `t`'s block iff each coordinate lies in the block's range on its axis. -/
theorem mem_blk6 (t : Fin cfg0.N) (i : S10000x256.Idx) :
    i ∈ ((cfg0.win 6).blk t).view.set ↔ ∀ a : Fin 2, win0_6.index t a * S1000x256.size a ≤ (i a).val
      ∧ (i a).val < win0_6.index t a * S1000x256.size a + S1000x256.size a := by
  show i ∈ ((View.whole main_v0_3).slice (win0_6.rect t)).set ↔ _
  rw [View.set_slice_whole, Rect.mem_set_unit]
  exact Iff.rfl

/-- Row `r` is written by point `r / 1000`: the ten blocks tile the array. -/
theorem cover6 (i : S10000x256.Idx) :
    ∃ t : Fin cfg0.N, (cfg0.win 6).flush t = true ∧ i ∈ ((cfg0.win 6).blk t).view.set := by
  have hi0 : (i 0).val < 10000 := (i 0).isLt
  have hi1 : (i 1).val < 256 := (i 1).isLt
  have hT : (i 0).val / 1000 < 10 := by omega
  obtain ⟨e0, e1⟩ := idx_out6 ⟨(i 0).val / 1000, hT⟩
  have e0' : win0_6.index ⟨(i 0).val / 1000, hT⟩ (0 : Fin 2) = (i 0).val / 1000 := e0
  refine ⟨⟨(i 0).val / 1000, hT⟩, flush0_6 _, ?_⟩
  rw [mem_blk6]
  intro a
  match a with
  | ⟨0, _⟩ =>
    show win0_6.index ⟨(i 0).val / 1000, hT⟩ (0 : Fin 2) * 1000 ≤ (i 0).val
      ∧ (i 0).val < win0_6.index ⟨(i 0).val / 1000, hT⟩ (0 : Fin 2) * 1000 + 1000
    omega
  | ⟨1, _⟩ =>
    show win0_6.index ⟨(i 0).val / 1000, hT⟩ (1 : Fin 2) * 256 ≤ (i 1).val
      ∧ (i 1).val < win0_6.index ⟨(i 0).val / 1000, hT⟩ (1 : Fin 2) * 256 + 256
    omega

/-- After the run the whole array is `lin 3` of the argument arrays. -/
theorem final6 (c : Dev nD) :
    (dats m 0 c).arrAt 6 cfg0.N = lin 3 (V m c main_arg0) (V m c main_arg1) (V m c main_arg2) :=
  (dats m 0 c).arrAt_eq_of_cover 6 (lin 3 (V m c main_arg0) (V m c main_arg1) (V m c main_arg2))
    (fun t _ => flushed6_eq m c t) cover6

/-! ## Direction 4 (output window 7) -/

/-- The output window's block index at point `t` is (t, 0): point `t` writes rows 1000·t … 1000·t + 999. -/
theorem idx_out7 : ∀ t : Fin cfg0.N, win0_7.index t (0 : Fin 2) = t.val ∧ win0_7.index t (1 : Fin 2) = 0 :=
  (by decide +kernel : ∀ t : Fin grid0.N, _)

/-- What point `t` writes back is block `t` of `lin 4` of the argument arrays. -/
theorem flushed7_eq (c : Dev nD) (t : Fin cfg0.N) :
    (dats m 0 c).flushed 7 t
      = ((cfg0.win 7).blk t).view.read (Elt Ideal) (lin 4 (V m c main_arg0) (V m c main_arg1) (V m c main_arg2)) := by
  rw [Cert.KernelIdeal.Value.flushed7]
  unfold out0_7
  rw [View.canon_unit_zero zero_offsets, pay6_eq]
  obtain ⟨e0, e1⟩ := idx_out7 t
  funext j
  exact point_entry m 4 c t _ _ _ _ rfl rfl rfl rfl rfl j (((cfg0.win 7).blk t).view.emb j)
    (by show win0_7.index t (0 : Fin 2) * 1000 + 1 * (j 0).val = t.val * 1000 + (j 0).val; omega)
    (by show win0_7.index t (1 : Fin 2) * 256 + 1 * (j 1).val = (j 1).val; omega)

/-- An index of the array lies in point `t`'s block iff each coordinate lies in the block's range on its axis. -/
theorem mem_blk7 (t : Fin cfg0.N) (i : S10000x256.Idx) :
    i ∈ ((cfg0.win 7).blk t).view.set ↔ ∀ a : Fin 2, win0_7.index t a * S1000x256.size a ≤ (i a).val
      ∧ (i a).val < win0_7.index t a * S1000x256.size a + S1000x256.size a := by
  show i ∈ ((View.whole main_v0_4).slice (win0_7.rect t)).set ↔ _
  rw [View.set_slice_whole, Rect.mem_set_unit]
  exact Iff.rfl

/-- Row `r` is written by point `r / 1000`: the ten blocks tile the array. -/
theorem cover7 (i : S10000x256.Idx) :
    ∃ t : Fin cfg0.N, (cfg0.win 7).flush t = true ∧ i ∈ ((cfg0.win 7).blk t).view.set := by
  have hi0 : (i 0).val < 10000 := (i 0).isLt
  have hi1 : (i 1).val < 256 := (i 1).isLt
  have hT : (i 0).val / 1000 < 10 := by omega
  obtain ⟨e0, e1⟩ := idx_out7 ⟨(i 0).val / 1000, hT⟩
  have e0' : win0_7.index ⟨(i 0).val / 1000, hT⟩ (0 : Fin 2) = (i 0).val / 1000 := e0
  refine ⟨⟨(i 0).val / 1000, hT⟩, flush0_7 _, ?_⟩
  rw [mem_blk7]
  intro a
  match a with
  | ⟨0, _⟩ =>
    show win0_7.index ⟨(i 0).val / 1000, hT⟩ (0 : Fin 2) * 1000 ≤ (i 0).val
      ∧ (i 0).val < win0_7.index ⟨(i 0).val / 1000, hT⟩ (0 : Fin 2) * 1000 + 1000
    omega
  | ⟨1, _⟩ =>
    show win0_7.index ⟨(i 0).val / 1000, hT⟩ (1 : Fin 2) * 256 ≤ (i 1).val
      ∧ (i 1).val < win0_7.index ⟨(i 0).val / 1000, hT⟩ (1 : Fin 2) * 256 + 256
    omega

/-- After the run the whole array is `lin 4` of the argument arrays. -/
theorem final7 (c : Dev nD) :
    (dats m 0 c).arrAt 7 cfg0.N = lin 4 (V m c main_arg0) (V m c main_arg1) (V m c main_arg2) :=
  (dats m 0 c).arrAt_eq_of_cover 7 (lin 4 (V m c main_arg0) (V m c main_arg1) (V m c main_arg2))
    (fun t _ => flushed7_eq m c t) cover7

/-! ## Direction 5 (output window 8) -/

/-- The output window's block index at point `t` is (t, 0): point `t` writes rows 1000·t … 1000·t + 999. -/
theorem idx_out8 : ∀ t : Fin cfg0.N, win0_8.index t (0 : Fin 2) = t.val ∧ win0_8.index t (1 : Fin 2) = 0 :=
  (by decide +kernel : ∀ t : Fin grid0.N, _)

/-- What point `t` writes back is block `t` of `lin 5` of the argument arrays. -/
theorem flushed8_eq (c : Dev nD) (t : Fin cfg0.N) :
    (dats m 0 c).flushed 8 t
      = ((cfg0.win 8).blk t).view.read (Elt Ideal) (lin 5 (V m c main_arg0) (V m c main_arg1) (V m c main_arg2)) := by
  rw [Cert.KernelIdeal.Value.flushed8]
  unfold out0_8
  rw [View.canon_unit_zero zero_offsets, pay7_eq]
  obtain ⟨e0, e1⟩ := idx_out8 t
  funext j
  exact point_entry m 5 c t _ _ _ _ rfl rfl rfl rfl rfl j (((cfg0.win 8).blk t).view.emb j)
    (by show win0_8.index t (0 : Fin 2) * 1000 + 1 * (j 0).val = t.val * 1000 + (j 0).val; omega)
    (by show win0_8.index t (1 : Fin 2) * 256 + 1 * (j 1).val = (j 1).val; omega)

/-- An index of the array lies in point `t`'s block iff each coordinate lies in the block's range on its axis. -/
theorem mem_blk8 (t : Fin cfg0.N) (i : S10000x256.Idx) :
    i ∈ ((cfg0.win 8).blk t).view.set ↔ ∀ a : Fin 2, win0_8.index t a * S1000x256.size a ≤ (i a).val
      ∧ (i a).val < win0_8.index t a * S1000x256.size a + S1000x256.size a := by
  show i ∈ ((View.whole main_v0_5).slice (win0_8.rect t)).set ↔ _
  rw [View.set_slice_whole, Rect.mem_set_unit]
  exact Iff.rfl

/-- Row `r` is written by point `r / 1000`: the ten blocks tile the array. -/
theorem cover8 (i : S10000x256.Idx) :
    ∃ t : Fin cfg0.N, (cfg0.win 8).flush t = true ∧ i ∈ ((cfg0.win 8).blk t).view.set := by
  have hi0 : (i 0).val < 10000 := (i 0).isLt
  have hi1 : (i 1).val < 256 := (i 1).isLt
  have hT : (i 0).val / 1000 < 10 := by omega
  obtain ⟨e0, e1⟩ := idx_out8 ⟨(i 0).val / 1000, hT⟩
  have e0' : win0_8.index ⟨(i 0).val / 1000, hT⟩ (0 : Fin 2) = (i 0).val / 1000 := e0
  refine ⟨⟨(i 0).val / 1000, hT⟩, flush0_8 _, ?_⟩
  rw [mem_blk8]
  intro a
  match a with
  | ⟨0, _⟩ =>
    show win0_8.index ⟨(i 0).val / 1000, hT⟩ (0 : Fin 2) * 1000 ≤ (i 0).val
      ∧ (i 0).val < win0_8.index ⟨(i 0).val / 1000, hT⟩ (0 : Fin 2) * 1000 + 1000
    omega
  | ⟨1, _⟩ =>
    show win0_8.index ⟨(i 0).val / 1000, hT⟩ (1 : Fin 2) * 256 ≤ (i 1).val
      ∧ (i 1).val < win0_8.index ⟨(i 0).val / 1000, hT⟩ (1 : Fin 2) * 256 + 256
    omega

/-- After the run the whole array is `lin 5` of the argument arrays. -/
theorem final8 (c : Dev nD) :
    (dats m 0 c).arrAt 8 cfg0.N = lin 5 (V m c main_arg0) (V m c main_arg1) (V m c main_arg2) :=
  (dats m 0 c).arrAt_eq_of_cover 8 (lin 5 (V m c main_arg0) (V m c main_arg1) (V m c main_arg2))
    (fun t _ => flushed8_eq m c t) cover8

end Cert.LinearStack

end
-- ==== Proof.Blocks1.lean ====
/-
  From blocks to whole arrays, directions 6 … 11.

  Each output array is written block by block: point `t` of the ten writes rows 1000·t … 1000·t + 999, and what it
  writes is that block of `lin k` of the argument arrays (the point's entry lemma). The ten blocks are disjoint
  and tile the 10000 rows (row `r` belongs to point `r / 1000`), so after the run the array IS `lin k` of the arguments.
-/
import proofs.«176759_g40656160424520_cont_8to1_b_390_8_alg».proof.Proof.Gen.KernelIdeal.Value
import proofs.«176759_g40656160424520_cont_8to1_b_390_8_alg».proof.Proof.PointEntry

noncomputable section

namespace Cert.LinearStack

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

/-! ## Direction 6 (output window 9) -/

/-- The output window's block index at point `t` is (t, 0): point `t` writes rows 1000·t … 1000·t + 999. -/
theorem idx_out9 : ∀ t : Fin cfg0.N, win0_9.index t (0 : Fin 2) = t.val ∧ win0_9.index t (1 : Fin 2) = 0 :=
  (by decide +kernel : ∀ t : Fin grid0.N, _)

/-- What point `t` writes back is block `t` of `lin 6` of the argument arrays. -/
theorem flushed9_eq (c : Dev nD) (t : Fin cfg0.N) :
    (dats m 0 c).flushed 9 t
      = ((cfg0.win 9).blk t).view.read (Elt Ideal) (lin 6 (V m c main_arg0) (V m c main_arg1) (V m c main_arg2)) := by
  rw [Cert.KernelIdeal.Value.flushed9]
  unfold out0_9
  rw [View.canon_unit_zero zero_offsets, pay9_eq]
  obtain ⟨e0, e1⟩ := idx_out9 t
  funext j
  exact point_entry m 6 c t _ _ _ _ rfl rfl rfl rfl rfl j (((cfg0.win 9).blk t).view.emb j)
    (by show win0_9.index t (0 : Fin 2) * 1000 + 1 * (j 0).val = t.val * 1000 + (j 0).val; omega)
    (by show win0_9.index t (1 : Fin 2) * 256 + 1 * (j 1).val = (j 1).val; omega)

/-- An index of the array lies in point `t`'s block iff each coordinate lies in the block's range on its axis. -/
theorem mem_blk9 (t : Fin cfg0.N) (i : S10000x256.Idx) :
    i ∈ ((cfg0.win 9).blk t).view.set ↔ ∀ a : Fin 2, win0_9.index t a * S1000x256.size a ≤ (i a).val
      ∧ (i a).val < win0_9.index t a * S1000x256.size a + S1000x256.size a := by
  show i ∈ ((View.whole main_v0_6).slice (win0_9.rect t)).set ↔ _
  rw [View.set_slice_whole, Rect.mem_set_unit]
  exact Iff.rfl

/-- Row `r` is written by point `r / 1000`: the ten blocks tile the array. -/
theorem cover9 (i : S10000x256.Idx) :
    ∃ t : Fin cfg0.N, (cfg0.win 9).flush t = true ∧ i ∈ ((cfg0.win 9).blk t).view.set := by
  have hi0 : (i 0).val < 10000 := (i 0).isLt
  have hi1 : (i 1).val < 256 := (i 1).isLt
  have hT : (i 0).val / 1000 < 10 := by omega
  obtain ⟨e0, e1⟩ := idx_out9 ⟨(i 0).val / 1000, hT⟩
  have e0' : win0_9.index ⟨(i 0).val / 1000, hT⟩ (0 : Fin 2) = (i 0).val / 1000 := e0
  refine ⟨⟨(i 0).val / 1000, hT⟩, flush0_9 _, ?_⟩
  rw [mem_blk9]
  intro a
  match a with
  | ⟨0, _⟩ =>
    show win0_9.index ⟨(i 0).val / 1000, hT⟩ (0 : Fin 2) * 1000 ≤ (i 0).val
      ∧ (i 0).val < win0_9.index ⟨(i 0).val / 1000, hT⟩ (0 : Fin 2) * 1000 + 1000
    omega
  | ⟨1, _⟩ =>
    show win0_9.index ⟨(i 0).val / 1000, hT⟩ (1 : Fin 2) * 256 ≤ (i 1).val
      ∧ (i 1).val < win0_9.index ⟨(i 0).val / 1000, hT⟩ (1 : Fin 2) * 256 + 256
    omega

/-- After the run the whole array is `lin 6` of the argument arrays. -/
theorem final9 (c : Dev nD) :
    (dats m 0 c).arrAt 9 cfg0.N = lin 6 (V m c main_arg0) (V m c main_arg1) (V m c main_arg2) :=
  (dats m 0 c).arrAt_eq_of_cover 9 (lin 6 (V m c main_arg0) (V m c main_arg1) (V m c main_arg2))
    (fun t _ => flushed9_eq m c t) cover9

/-! ## Direction 7 (output window 10) -/

/-- The output window's block index at point `t` is (t, 0): point `t` writes rows 1000·t … 1000·t + 999. -/
theorem idx_out10 : ∀ t : Fin cfg0.N, win0_10.index t (0 : Fin 2) = t.val ∧ win0_10.index t (1 : Fin 2) = 0 :=
  (by decide +kernel : ∀ t : Fin grid0.N, _)

/-- What point `t` writes back is block `t` of `lin 7` of the argument arrays. -/
theorem flushed10_eq (c : Dev nD) (t : Fin cfg0.N) :
    (dats m 0 c).flushed 10 t
      = ((cfg0.win 10).blk t).view.read (Elt Ideal) (lin 7 (V m c main_arg0) (V m c main_arg1) (V m c main_arg2)) := by
  rw [Cert.KernelIdeal.Value.flushed10]
  unfold out0_10
  rw [View.canon_unit_zero zero_offsets, pay10_eq]
  obtain ⟨e0, e1⟩ := idx_out10 t
  funext j
  exact point_entry m 7 c t _ _ _ _ rfl rfl rfl rfl rfl j (((cfg0.win 10).blk t).view.emb j)
    (by show win0_10.index t (0 : Fin 2) * 1000 + 1 * (j 0).val = t.val * 1000 + (j 0).val; omega)
    (by show win0_10.index t (1 : Fin 2) * 256 + 1 * (j 1).val = (j 1).val; omega)

/-- An index of the array lies in point `t`'s block iff each coordinate lies in the block's range on its axis. -/
theorem mem_blk10 (t : Fin cfg0.N) (i : S10000x256.Idx) :
    i ∈ ((cfg0.win 10).blk t).view.set ↔ ∀ a : Fin 2, win0_10.index t a * S1000x256.size a ≤ (i a).val
      ∧ (i a).val < win0_10.index t a * S1000x256.size a + S1000x256.size a := by
  show i ∈ ((View.whole main_v0_7).slice (win0_10.rect t)).set ↔ _
  rw [View.set_slice_whole, Rect.mem_set_unit]
  exact Iff.rfl

/-- Row `r` is written by point `r / 1000`: the ten blocks tile the array. -/
theorem cover10 (i : S10000x256.Idx) :
    ∃ t : Fin cfg0.N, (cfg0.win 10).flush t = true ∧ i ∈ ((cfg0.win 10).blk t).view.set := by
  have hi0 : (i 0).val < 10000 := (i 0).isLt
  have hi1 : (i 1).val < 256 := (i 1).isLt
  have hT : (i 0).val / 1000 < 10 := by omega
  obtain ⟨e0, e1⟩ := idx_out10 ⟨(i 0).val / 1000, hT⟩
  have e0' : win0_10.index ⟨(i 0).val / 1000, hT⟩ (0 : Fin 2) = (i 0).val / 1000 := e0
  refine ⟨⟨(i 0).val / 1000, hT⟩, flush0_10 _, ?_⟩
  rw [mem_blk10]
  intro a
  match a with
  | ⟨0, _⟩ =>
    show win0_10.index ⟨(i 0).val / 1000, hT⟩ (0 : Fin 2) * 1000 ≤ (i 0).val
      ∧ (i 0).val < win0_10.index ⟨(i 0).val / 1000, hT⟩ (0 : Fin 2) * 1000 + 1000
    omega
  | ⟨1, _⟩ =>
    show win0_10.index ⟨(i 0).val / 1000, hT⟩ (1 : Fin 2) * 256 ≤ (i 1).val
      ∧ (i 1).val < win0_10.index ⟨(i 0).val / 1000, hT⟩ (1 : Fin 2) * 256 + 256
    omega

/-- After the run the whole array is `lin 7` of the argument arrays. -/
theorem final10 (c : Dev nD) :
    (dats m 0 c).arrAt 10 cfg0.N = lin 7 (V m c main_arg0) (V m c main_arg1) (V m c main_arg2) :=
  (dats m 0 c).arrAt_eq_of_cover 10 (lin 7 (V m c main_arg0) (V m c main_arg1) (V m c main_arg2))
    (fun t _ => flushed10_eq m c t) cover10

/-! ## Direction 8 (output window 11) -/

/-- The output window's block index at point `t` is (t, 0): point `t` writes rows 1000·t … 1000·t + 999. -/
theorem idx_out11 : ∀ t : Fin cfg0.N, win0_11.index t (0 : Fin 2) = t.val ∧ win0_11.index t (1 : Fin 2) = 0 :=
  (by decide +kernel : ∀ t : Fin grid0.N, _)

/-- What point `t` writes back is block `t` of `lin 8` of the argument arrays. -/
theorem flushed11_eq (c : Dev nD) (t : Fin cfg0.N) :
    (dats m 0 c).flushed 11 t
      = ((cfg0.win 11).blk t).view.read (Elt Ideal) (lin 8 (V m c main_arg0) (V m c main_arg1) (V m c main_arg2)) := by
  rw [Cert.KernelIdeal.Value.flushed11]
  unfold out0_11
  rw [View.canon_unit_zero zero_offsets, pay11_eq]
  obtain ⟨e0, e1⟩ := idx_out11 t
  funext j
  exact point_entry m 8 c t _ _ _ _ rfl rfl rfl rfl rfl j (((cfg0.win 11).blk t).view.emb j)
    (by show win0_11.index t (0 : Fin 2) * 1000 + 1 * (j 0).val = t.val * 1000 + (j 0).val; omega)
    (by show win0_11.index t (1 : Fin 2) * 256 + 1 * (j 1).val = (j 1).val; omega)

/-- An index of the array lies in point `t`'s block iff each coordinate lies in the block's range on its axis. -/
theorem mem_blk11 (t : Fin cfg0.N) (i : S10000x256.Idx) :
    i ∈ ((cfg0.win 11).blk t).view.set ↔ ∀ a : Fin 2, win0_11.index t a * S1000x256.size a ≤ (i a).val
      ∧ (i a).val < win0_11.index t a * S1000x256.size a + S1000x256.size a := by
  show i ∈ ((View.whole main_v0_8).slice (win0_11.rect t)).set ↔ _
  rw [View.set_slice_whole, Rect.mem_set_unit]
  exact Iff.rfl

/-- Row `r` is written by point `r / 1000`: the ten blocks tile the array. -/
theorem cover11 (i : S10000x256.Idx) :
    ∃ t : Fin cfg0.N, (cfg0.win 11).flush t = true ∧ i ∈ ((cfg0.win 11).blk t).view.set := by
  have hi0 : (i 0).val < 10000 := (i 0).isLt
  have hi1 : (i 1).val < 256 := (i 1).isLt
  have hT : (i 0).val / 1000 < 10 := by omega
  obtain ⟨e0, e1⟩ := idx_out11 ⟨(i 0).val / 1000, hT⟩
  have e0' : win0_11.index ⟨(i 0).val / 1000, hT⟩ (0 : Fin 2) = (i 0).val / 1000 := e0
  refine ⟨⟨(i 0).val / 1000, hT⟩, flush0_11 _, ?_⟩
  rw [mem_blk11]
  intro a
  match a with
  | ⟨0, _⟩ =>
    show win0_11.index ⟨(i 0).val / 1000, hT⟩ (0 : Fin 2) * 1000 ≤ (i 0).val
      ∧ (i 0).val < win0_11.index ⟨(i 0).val / 1000, hT⟩ (0 : Fin 2) * 1000 + 1000
    omega
  | ⟨1, _⟩ =>
    show win0_11.index ⟨(i 0).val / 1000, hT⟩ (1 : Fin 2) * 256 ≤ (i 1).val
      ∧ (i 1).val < win0_11.index ⟨(i 0).val / 1000, hT⟩ (1 : Fin 2) * 256 + 256
    omega

/-- After the run the whole array is `lin 8` of the argument arrays. -/
theorem final11 (c : Dev nD) :
    (dats m 0 c).arrAt 11 cfg0.N = lin 8 (V m c main_arg0) (V m c main_arg1) (V m c main_arg2) :=
  (dats m 0 c).arrAt_eq_of_cover 11 (lin 8 (V m c main_arg0) (V m c main_arg1) (V m c main_arg2))
    (fun t _ => flushed11_eq m c t) cover11

/-! ## Direction 9 (output window 12) -/

/-- The output window's block index at point `t` is (t, 0): point `t` writes rows 1000·t … 1000·t + 999. -/
theorem idx_out12 : ∀ t : Fin cfg0.N, win0_12.index t (0 : Fin 2) = t.val ∧ win0_12.index t (1 : Fin 2) = 0 :=
  (by decide +kernel : ∀ t : Fin grid0.N, _)

/-- What point `t` writes back is block `t` of `lin 9` of the argument arrays. -/
theorem flushed12_eq (c : Dev nD) (t : Fin cfg0.N) :
    (dats m 0 c).flushed 12 t
      = ((cfg0.win 12).blk t).view.read (Elt Ideal) (lin 9 (V m c main_arg0) (V m c main_arg1) (V m c main_arg2)) := by
  rw [Cert.KernelIdeal.Value.flushed12]
  unfold out0_12
  rw [View.canon_unit_zero zero_offsets, pay12_eq]
  obtain ⟨e0, e1⟩ := idx_out12 t
  funext j
  exact point_entry m 9 c t _ _ _ _ rfl rfl rfl rfl rfl j (((cfg0.win 12).blk t).view.emb j)
    (by show win0_12.index t (0 : Fin 2) * 1000 + 1 * (j 0).val = t.val * 1000 + (j 0).val; omega)
    (by show win0_12.index t (1 : Fin 2) * 256 + 1 * (j 1).val = (j 1).val; omega)

/-- An index of the array lies in point `t`'s block iff each coordinate lies in the block's range on its axis. -/
theorem mem_blk12 (t : Fin cfg0.N) (i : S10000x256.Idx) :
    i ∈ ((cfg0.win 12).blk t).view.set ↔ ∀ a : Fin 2, win0_12.index t a * S1000x256.size a ≤ (i a).val
      ∧ (i a).val < win0_12.index t a * S1000x256.size a + S1000x256.size a := by
  show i ∈ ((View.whole main_v0_9).slice (win0_12.rect t)).set ↔ _
  rw [View.set_slice_whole, Rect.mem_set_unit]
  exact Iff.rfl

/-- Row `r` is written by point `r / 1000`: the ten blocks tile the array. -/
theorem cover12 (i : S10000x256.Idx) :
    ∃ t : Fin cfg0.N, (cfg0.win 12).flush t = true ∧ i ∈ ((cfg0.win 12).blk t).view.set := by
  have hi0 : (i 0).val < 10000 := (i 0).isLt
  have hi1 : (i 1).val < 256 := (i 1).isLt
  have hT : (i 0).val / 1000 < 10 := by omega
  obtain ⟨e0, e1⟩ := idx_out12 ⟨(i 0).val / 1000, hT⟩
  have e0' : win0_12.index ⟨(i 0).val / 1000, hT⟩ (0 : Fin 2) = (i 0).val / 1000 := e0
  refine ⟨⟨(i 0).val / 1000, hT⟩, flush0_12 _, ?_⟩
  rw [mem_blk12]
  intro a
  match a with
  | ⟨0, _⟩ =>
    show win0_12.index ⟨(i 0).val / 1000, hT⟩ (0 : Fin 2) * 1000 ≤ (i 0).val
      ∧ (i 0).val < win0_12.index ⟨(i 0).val / 1000, hT⟩ (0 : Fin 2) * 1000 + 1000
    omega
  | ⟨1, _⟩ =>
    show win0_12.index ⟨(i 0).val / 1000, hT⟩ (1 : Fin 2) * 256 ≤ (i 1).val
      ∧ (i 1).val < win0_12.index ⟨(i 0).val / 1000, hT⟩ (1 : Fin 2) * 256 + 256
    omega

/-- After the run the whole array is `lin 9` of the argument arrays. -/
theorem final12 (c : Dev nD) :
    (dats m 0 c).arrAt 12 cfg0.N = lin 9 (V m c main_arg0) (V m c main_arg1) (V m c main_arg2) :=
  (dats m 0 c).arrAt_eq_of_cover 12 (lin 9 (V m c main_arg0) (V m c main_arg1) (V m c main_arg2))
    (fun t _ => flushed12_eq m c t) cover12

/-! ## Direction 10 (output window 13) -/

/-- The output window's block index at point `t` is (t, 0): point `t` writes rows 1000·t … 1000·t + 999. -/
theorem idx_out13 : ∀ t : Fin cfg0.N, win0_13.index t (0 : Fin 2) = t.val ∧ win0_13.index t (1 : Fin 2) = 0 :=
  (by decide +kernel : ∀ t : Fin grid0.N, _)

/-- What point `t` writes back is block `t` of `lin 10` of the argument arrays. -/
theorem flushed13_eq (c : Dev nD) (t : Fin cfg0.N) :
    (dats m 0 c).flushed 13 t
      = ((cfg0.win 13).blk t).view.read (Elt Ideal) (lin 10 (V m c main_arg0) (V m c main_arg1) (V m c main_arg2)) := by
  rw [Cert.KernelIdeal.Value.flushed13]
  unfold out0_13
  rw [View.canon_unit_zero zero_offsets, pay13_eq]
  obtain ⟨e0, e1⟩ := idx_out13 t
  funext j
  exact point_entry m 10 c t _ _ _ _ rfl rfl rfl rfl rfl j (((cfg0.win 13).blk t).view.emb j)
    (by show win0_13.index t (0 : Fin 2) * 1000 + 1 * (j 0).val = t.val * 1000 + (j 0).val; omega)
    (by show win0_13.index t (1 : Fin 2) * 256 + 1 * (j 1).val = (j 1).val; omega)

/-- An index of the array lies in point `t`'s block iff each coordinate lies in the block's range on its axis. -/
theorem mem_blk13 (t : Fin cfg0.N) (i : S10000x256.Idx) :
    i ∈ ((cfg0.win 13).blk t).view.set ↔ ∀ a : Fin 2, win0_13.index t a * S1000x256.size a ≤ (i a).val
      ∧ (i a).val < win0_13.index t a * S1000x256.size a + S1000x256.size a := by
  show i ∈ ((View.whole main_v0_10).slice (win0_13.rect t)).set ↔ _
  rw [View.set_slice_whole, Rect.mem_set_unit]
  exact Iff.rfl

/-- Row `r` is written by point `r / 1000`: the ten blocks tile the array. -/
theorem cover13 (i : S10000x256.Idx) :
    ∃ t : Fin cfg0.N, (cfg0.win 13).flush t = true ∧ i ∈ ((cfg0.win 13).blk t).view.set := by
  have hi0 : (i 0).val < 10000 := (i 0).isLt
  have hi1 : (i 1).val < 256 := (i 1).isLt
  have hT : (i 0).val / 1000 < 10 := by omega
  obtain ⟨e0, e1⟩ := idx_out13 ⟨(i 0).val / 1000, hT⟩
  have e0' : win0_13.index ⟨(i 0).val / 1000, hT⟩ (0 : Fin 2) = (i 0).val / 1000 := e0
  refine ⟨⟨(i 0).val / 1000, hT⟩, flush0_13 _, ?_⟩
  rw [mem_blk13]
  intro a
  match a with
  | ⟨0, _⟩ =>
    show win0_13.index ⟨(i 0).val / 1000, hT⟩ (0 : Fin 2) * 1000 ≤ (i 0).val
      ∧ (i 0).val < win0_13.index ⟨(i 0).val / 1000, hT⟩ (0 : Fin 2) * 1000 + 1000
    omega
  | ⟨1, _⟩ =>
    show win0_13.index ⟨(i 0).val / 1000, hT⟩ (1 : Fin 2) * 256 ≤ (i 1).val
      ∧ (i 1).val < win0_13.index ⟨(i 0).val / 1000, hT⟩ (1 : Fin 2) * 256 + 256
    omega

/-- After the run the whole array is `lin 10` of the argument arrays. -/
theorem final13 (c : Dev nD) :
    (dats m 0 c).arrAt 13 cfg0.N = lin 10 (V m c main_arg0) (V m c main_arg1) (V m c main_arg2) :=
  (dats m 0 c).arrAt_eq_of_cover 13 (lin 10 (V m c main_arg0) (V m c main_arg1) (V m c main_arg2))
    (fun t _ => flushed13_eq m c t) cover13

/-! ## Direction 11 (output window 14) -/

/-- The output window's block index at point `t` is (t, 0): point `t` writes rows 1000·t … 1000·t + 999. -/
theorem idx_out14 : ∀ t : Fin cfg0.N, win0_14.index t (0 : Fin 2) = t.val ∧ win0_14.index t (1 : Fin 2) = 0 :=
  (by decide +kernel : ∀ t : Fin grid0.N, _)

/-- What point `t` writes back is block `t` of `lin 11` of the argument arrays. -/
theorem flushed14_eq (c : Dev nD) (t : Fin cfg0.N) :
    (dats m 0 c).flushed 14 t
      = ((cfg0.win 14).blk t).view.read (Elt Ideal) (lin 11 (V m c main_arg0) (V m c main_arg1) (V m c main_arg2)) := by
  rw [Cert.KernelIdeal.Value.flushed14]
  unfold out0_14
  rw [View.canon_unit_zero zero_offsets, pay14_eq]
  obtain ⟨e0, e1⟩ := idx_out14 t
  funext j
  exact point_entry m 11 c t _ _ _ _ rfl rfl rfl rfl rfl j (((cfg0.win 14).blk t).view.emb j)
    (by show win0_14.index t (0 : Fin 2) * 1000 + 1 * (j 0).val = t.val * 1000 + (j 0).val; omega)
    (by show win0_14.index t (1 : Fin 2) * 256 + 1 * (j 1).val = (j 1).val; omega)

/-- An index of the array lies in point `t`'s block iff each coordinate lies in the block's range on its axis. -/
theorem mem_blk14 (t : Fin cfg0.N) (i : S10000x256.Idx) :
    i ∈ ((cfg0.win 14).blk t).view.set ↔ ∀ a : Fin 2, win0_14.index t a * S1000x256.size a ≤ (i a).val
      ∧ (i a).val < win0_14.index t a * S1000x256.size a + S1000x256.size a := by
  show i ∈ ((View.whole main_v0_11).slice (win0_14.rect t)).set ↔ _
  rw [View.set_slice_whole, Rect.mem_set_unit]
  exact Iff.rfl

/-- Row `r` is written by point `r / 1000`: the ten blocks tile the array. -/
theorem cover14 (i : S10000x256.Idx) :
    ∃ t : Fin cfg0.N, (cfg0.win 14).flush t = true ∧ i ∈ ((cfg0.win 14).blk t).view.set := by
  have hi0 : (i 0).val < 10000 := (i 0).isLt
  have hi1 : (i 1).val < 256 := (i 1).isLt
  have hT : (i 0).val / 1000 < 10 := by omega
  obtain ⟨e0, e1⟩ := idx_out14 ⟨(i 0).val / 1000, hT⟩
  have e0' : win0_14.index ⟨(i 0).val / 1000, hT⟩ (0 : Fin 2) = (i 0).val / 1000 := e0
  refine ⟨⟨(i 0).val / 1000, hT⟩, flush0_14 _, ?_⟩
  rw [mem_blk14]
  intro a
  match a with
  | ⟨0, _⟩ =>
    show win0_14.index ⟨(i 0).val / 1000, hT⟩ (0 : Fin 2) * 1000 ≤ (i 0).val
      ∧ (i 0).val < win0_14.index ⟨(i 0).val / 1000, hT⟩ (0 : Fin 2) * 1000 + 1000
    omega
  | ⟨1, _⟩ =>
    show win0_14.index ⟨(i 0).val / 1000, hT⟩ (1 : Fin 2) * 256 ≤ (i 1).val
      ∧ (i 1).val < win0_14.index ⟨(i 0).val / 1000, hT⟩ (1 : Fin 2) * 256 + 256
    omega

/-- After the run the whole array is `lin 11` of the argument arrays. -/
theorem final14 (c : Dev nD) :
    (dats m 0 c).arrAt 14 cfg0.N = lin 11 (V m c main_arg0) (V m c main_arg1) (V m c main_arg2) :=
  (dats m 0 c).arrAt_eq_of_cover 14 (lin 11 (V m c main_arg0) (V m c main_arg1) (V m c main_arg2))
    (fun t _ => flushed14_eq m c t) cover14

end Cert.LinearStack

end
-- ==== Proof.Blocks2.lean ====
/-
  From blocks to whole arrays, directions 12 … 16.

  Each output array is written block by block: point `t` of the ten writes rows 1000·t … 1000·t + 999, and what it
  writes is that block of `lin k` of the argument arrays (the point's entry lemma). The ten blocks are disjoint
  and tile the 10000 rows (row `r` belongs to point `r / 1000`), so after the run the array IS `lin k` of the arguments.
-/
import proofs.«176759_g40656160424520_cont_8to1_b_390_8_alg».proof.Proof.Gen.KernelIdeal.Value
import proofs.«176759_g40656160424520_cont_8to1_b_390_8_alg».proof.Proof.PointEntry

noncomputable section

namespace Cert.LinearStack

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

/-! ## Direction 12 (output window 15) -/

/-- The output window's block index at point `t` is (t, 0): point `t` writes rows 1000·t … 1000·t + 999. -/
theorem idx_out15 : ∀ t : Fin cfg0.N, win0_15.index t (0 : Fin 2) = t.val ∧ win0_15.index t (1 : Fin 2) = 0 :=
  (by decide +kernel : ∀ t : Fin grid0.N, _)

/-- What point `t` writes back is block `t` of `lin 12` of the argument arrays. -/
theorem flushed15_eq (c : Dev nD) (t : Fin cfg0.N) :
    (dats m 0 c).flushed 15 t
      = ((cfg0.win 15).blk t).view.read (Elt Ideal) (lin 12 (V m c main_arg0) (V m c main_arg1) (V m c main_arg2)) := by
  rw [Cert.KernelIdeal.Value.flushed15]
  unfold out0_15
  rw [View.canon_unit_zero zero_offsets, pay15_eq]
  obtain ⟨e0, e1⟩ := idx_out15 t
  funext j
  exact point_entry m 12 c t _ _ _ _ rfl rfl rfl rfl rfl j (((cfg0.win 15).blk t).view.emb j)
    (by show win0_15.index t (0 : Fin 2) * 1000 + 1 * (j 0).val = t.val * 1000 + (j 0).val; omega)
    (by show win0_15.index t (1 : Fin 2) * 256 + 1 * (j 1).val = (j 1).val; omega)

/-- An index of the array lies in point `t`'s block iff each coordinate lies in the block's range on its axis. -/
theorem mem_blk15 (t : Fin cfg0.N) (i : S10000x256.Idx) :
    i ∈ ((cfg0.win 15).blk t).view.set ↔ ∀ a : Fin 2, win0_15.index t a * S1000x256.size a ≤ (i a).val
      ∧ (i a).val < win0_15.index t a * S1000x256.size a + S1000x256.size a := by
  show i ∈ ((View.whole main_v0_12).slice (win0_15.rect t)).set ↔ _
  rw [View.set_slice_whole, Rect.mem_set_unit]
  exact Iff.rfl

/-- Row `r` is written by point `r / 1000`: the ten blocks tile the array. -/
theorem cover15 (i : S10000x256.Idx) :
    ∃ t : Fin cfg0.N, (cfg0.win 15).flush t = true ∧ i ∈ ((cfg0.win 15).blk t).view.set := by
  have hi0 : (i 0).val < 10000 := (i 0).isLt
  have hi1 : (i 1).val < 256 := (i 1).isLt
  have hT : (i 0).val / 1000 < 10 := by omega
  obtain ⟨e0, e1⟩ := idx_out15 ⟨(i 0).val / 1000, hT⟩
  have e0' : win0_15.index ⟨(i 0).val / 1000, hT⟩ (0 : Fin 2) = (i 0).val / 1000 := e0
  refine ⟨⟨(i 0).val / 1000, hT⟩, flush0_15 _, ?_⟩
  rw [mem_blk15]
  intro a
  match a with
  | ⟨0, _⟩ =>
    show win0_15.index ⟨(i 0).val / 1000, hT⟩ (0 : Fin 2) * 1000 ≤ (i 0).val
      ∧ (i 0).val < win0_15.index ⟨(i 0).val / 1000, hT⟩ (0 : Fin 2) * 1000 + 1000
    omega
  | ⟨1, _⟩ =>
    show win0_15.index ⟨(i 0).val / 1000, hT⟩ (1 : Fin 2) * 256 ≤ (i 1).val
      ∧ (i 1).val < win0_15.index ⟨(i 0).val / 1000, hT⟩ (1 : Fin 2) * 256 + 256
    omega

/-- After the run the whole array is `lin 12` of the argument arrays. -/
theorem final15 (c : Dev nD) :
    (dats m 0 c).arrAt 15 cfg0.N = lin 12 (V m c main_arg0) (V m c main_arg1) (V m c main_arg2) :=
  (dats m 0 c).arrAt_eq_of_cover 15 (lin 12 (V m c main_arg0) (V m c main_arg1) (V m c main_arg2))
    (fun t _ => flushed15_eq m c t) cover15

/-! ## Direction 13 (output window 16) -/

/-- The output window's block index at point `t` is (t, 0): point `t` writes rows 1000·t … 1000·t + 999. -/
theorem idx_out16 : ∀ t : Fin cfg0.N, win0_16.index t (0 : Fin 2) = t.val ∧ win0_16.index t (1 : Fin 2) = 0 :=
  (by decide +kernel : ∀ t : Fin grid0.N, _)

/-- What point `t` writes back is block `t` of `lin 13` of the argument arrays. -/
theorem flushed16_eq (c : Dev nD) (t : Fin cfg0.N) :
    (dats m 0 c).flushed 16 t
      = ((cfg0.win 16).blk t).view.read (Elt Ideal) (lin 13 (V m c main_arg0) (V m c main_arg1) (V m c main_arg2)) := by
  rw [Cert.KernelIdeal.Value.flushed16]
  unfold out0_16
  rw [View.canon_unit_zero zero_offsets, pay16_eq]
  obtain ⟨e0, e1⟩ := idx_out16 t
  funext j
  exact point_entry m 13 c t _ _ _ _ rfl rfl rfl rfl rfl j (((cfg0.win 16).blk t).view.emb j)
    (by show win0_16.index t (0 : Fin 2) * 1000 + 1 * (j 0).val = t.val * 1000 + (j 0).val; omega)
    (by show win0_16.index t (1 : Fin 2) * 256 + 1 * (j 1).val = (j 1).val; omega)

/-- An index of the array lies in point `t`'s block iff each coordinate lies in the block's range on its axis. -/
theorem mem_blk16 (t : Fin cfg0.N) (i : S10000x256.Idx) :
    i ∈ ((cfg0.win 16).blk t).view.set ↔ ∀ a : Fin 2, win0_16.index t a * S1000x256.size a ≤ (i a).val
      ∧ (i a).val < win0_16.index t a * S1000x256.size a + S1000x256.size a := by
  show i ∈ ((View.whole main_v0_13).slice (win0_16.rect t)).set ↔ _
  rw [View.set_slice_whole, Rect.mem_set_unit]
  exact Iff.rfl

/-- Row `r` is written by point `r / 1000`: the ten blocks tile the array. -/
theorem cover16 (i : S10000x256.Idx) :
    ∃ t : Fin cfg0.N, (cfg0.win 16).flush t = true ∧ i ∈ ((cfg0.win 16).blk t).view.set := by
  have hi0 : (i 0).val < 10000 := (i 0).isLt
  have hi1 : (i 1).val < 256 := (i 1).isLt
  have hT : (i 0).val / 1000 < 10 := by omega
  obtain ⟨e0, e1⟩ := idx_out16 ⟨(i 0).val / 1000, hT⟩
  have e0' : win0_16.index ⟨(i 0).val / 1000, hT⟩ (0 : Fin 2) = (i 0).val / 1000 := e0
  refine ⟨⟨(i 0).val / 1000, hT⟩, flush0_16 _, ?_⟩
  rw [mem_blk16]
  intro a
  match a with
  | ⟨0, _⟩ =>
    show win0_16.index ⟨(i 0).val / 1000, hT⟩ (0 : Fin 2) * 1000 ≤ (i 0).val
      ∧ (i 0).val < win0_16.index ⟨(i 0).val / 1000, hT⟩ (0 : Fin 2) * 1000 + 1000
    omega
  | ⟨1, _⟩ =>
    show win0_16.index ⟨(i 0).val / 1000, hT⟩ (1 : Fin 2) * 256 ≤ (i 1).val
      ∧ (i 1).val < win0_16.index ⟨(i 0).val / 1000, hT⟩ (1 : Fin 2) * 256 + 256
    omega

/-- After the run the whole array is `lin 13` of the argument arrays. -/
theorem final16 (c : Dev nD) :
    (dats m 0 c).arrAt 16 cfg0.N = lin 13 (V m c main_arg0) (V m c main_arg1) (V m c main_arg2) :=
  (dats m 0 c).arrAt_eq_of_cover 16 (lin 13 (V m c main_arg0) (V m c main_arg1) (V m c main_arg2))
    (fun t _ => flushed16_eq m c t) cover16

/-! ## Direction 14 (output window 17) -/

/-- The output window's block index at point `t` is (t, 0): point `t` writes rows 1000·t … 1000·t + 999. -/
theorem idx_out17 : ∀ t : Fin cfg0.N, win0_17.index t (0 : Fin 2) = t.val ∧ win0_17.index t (1 : Fin 2) = 0 :=
  (by decide +kernel : ∀ t : Fin grid0.N, _)

/-- What point `t` writes back is block `t` of `lin 14` of the argument arrays. -/
theorem flushed17_eq (c : Dev nD) (t : Fin cfg0.N) :
    (dats m 0 c).flushed 17 t
      = ((cfg0.win 17).blk t).view.read (Elt Ideal) (lin 14 (V m c main_arg0) (V m c main_arg1) (V m c main_arg2)) := by
  rw [Cert.KernelIdeal.Value.flushed17]
  unfold out0_17
  rw [View.canon_unit_zero zero_offsets, pay17_eq]
  obtain ⟨e0, e1⟩ := idx_out17 t
  funext j
  exact point_entry m 14 c t _ _ _ _ rfl rfl rfl rfl rfl j (((cfg0.win 17).blk t).view.emb j)
    (by show win0_17.index t (0 : Fin 2) * 1000 + 1 * (j 0).val = t.val * 1000 + (j 0).val; omega)
    (by show win0_17.index t (1 : Fin 2) * 256 + 1 * (j 1).val = (j 1).val; omega)

/-- An index of the array lies in point `t`'s block iff each coordinate lies in the block's range on its axis. -/
theorem mem_blk17 (t : Fin cfg0.N) (i : S10000x256.Idx) :
    i ∈ ((cfg0.win 17).blk t).view.set ↔ ∀ a : Fin 2, win0_17.index t a * S1000x256.size a ≤ (i a).val
      ∧ (i a).val < win0_17.index t a * S1000x256.size a + S1000x256.size a := by
  show i ∈ ((View.whole main_v0_14).slice (win0_17.rect t)).set ↔ _
  rw [View.set_slice_whole, Rect.mem_set_unit]
  exact Iff.rfl

/-- Row `r` is written by point `r / 1000`: the ten blocks tile the array. -/
theorem cover17 (i : S10000x256.Idx) :
    ∃ t : Fin cfg0.N, (cfg0.win 17).flush t = true ∧ i ∈ ((cfg0.win 17).blk t).view.set := by
  have hi0 : (i 0).val < 10000 := (i 0).isLt
  have hi1 : (i 1).val < 256 := (i 1).isLt
  have hT : (i 0).val / 1000 < 10 := by omega
  obtain ⟨e0, e1⟩ := idx_out17 ⟨(i 0).val / 1000, hT⟩
  have e0' : win0_17.index ⟨(i 0).val / 1000, hT⟩ (0 : Fin 2) = (i 0).val / 1000 := e0
  refine ⟨⟨(i 0).val / 1000, hT⟩, flush0_17 _, ?_⟩
  rw [mem_blk17]
  intro a
  match a with
  | ⟨0, _⟩ =>
    show win0_17.index ⟨(i 0).val / 1000, hT⟩ (0 : Fin 2) * 1000 ≤ (i 0).val
      ∧ (i 0).val < win0_17.index ⟨(i 0).val / 1000, hT⟩ (0 : Fin 2) * 1000 + 1000
    omega
  | ⟨1, _⟩ =>
    show win0_17.index ⟨(i 0).val / 1000, hT⟩ (1 : Fin 2) * 256 ≤ (i 1).val
      ∧ (i 1).val < win0_17.index ⟨(i 0).val / 1000, hT⟩ (1 : Fin 2) * 256 + 256
    omega

/-- After the run the whole array is `lin 14` of the argument arrays. -/
theorem final17 (c : Dev nD) :
    (dats m 0 c).arrAt 17 cfg0.N = lin 14 (V m c main_arg0) (V m c main_arg1) (V m c main_arg2) :=
  (dats m 0 c).arrAt_eq_of_cover 17 (lin 14 (V m c main_arg0) (V m c main_arg1) (V m c main_arg2))
    (fun t _ => flushed17_eq m c t) cover17

/-! ## Direction 15 (output window 18) -/

/-- The output window's block index at point `t` is (t, 0): point `t` writes rows 1000·t … 1000·t + 999. -/
theorem idx_out18 : ∀ t : Fin cfg0.N, win0_18.index t (0 : Fin 2) = t.val ∧ win0_18.index t (1 : Fin 2) = 0 :=
  (by decide +kernel : ∀ t : Fin grid0.N, _)

/-- What point `t` writes back is block `t` of `lin 15` of the argument arrays. -/
theorem flushed18_eq (c : Dev nD) (t : Fin cfg0.N) :
    (dats m 0 c).flushed 18 t
      = ((cfg0.win 18).blk t).view.read (Elt Ideal) (lin 15 (V m c main_arg0) (V m c main_arg1) (V m c main_arg2)) := by
  rw [Cert.KernelIdeal.Value.flushed18]
  unfold out0_18
  rw [View.canon_unit_zero zero_offsets, pay18_eq]
  obtain ⟨e0, e1⟩ := idx_out18 t
  funext j
  exact point_entry m 15 c t _ _ _ _ rfl rfl rfl rfl rfl j (((cfg0.win 18).blk t).view.emb j)
    (by show win0_18.index t (0 : Fin 2) * 1000 + 1 * (j 0).val = t.val * 1000 + (j 0).val; omega)
    (by show win0_18.index t (1 : Fin 2) * 256 + 1 * (j 1).val = (j 1).val; omega)

/-- An index of the array lies in point `t`'s block iff each coordinate lies in the block's range on its axis. -/
theorem mem_blk18 (t : Fin cfg0.N) (i : S10000x256.Idx) :
    i ∈ ((cfg0.win 18).blk t).view.set ↔ ∀ a : Fin 2, win0_18.index t a * S1000x256.size a ≤ (i a).val
      ∧ (i a).val < win0_18.index t a * S1000x256.size a + S1000x256.size a := by
  show i ∈ ((View.whole main_v0_15).slice (win0_18.rect t)).set ↔ _
  rw [View.set_slice_whole, Rect.mem_set_unit]
  exact Iff.rfl

/-- Row `r` is written by point `r / 1000`: the ten blocks tile the array. -/
theorem cover18 (i : S10000x256.Idx) :
    ∃ t : Fin cfg0.N, (cfg0.win 18).flush t = true ∧ i ∈ ((cfg0.win 18).blk t).view.set := by
  have hi0 : (i 0).val < 10000 := (i 0).isLt
  have hi1 : (i 1).val < 256 := (i 1).isLt
  have hT : (i 0).val / 1000 < 10 := by omega
  obtain ⟨e0, e1⟩ := idx_out18 ⟨(i 0).val / 1000, hT⟩
  have e0' : win0_18.index ⟨(i 0).val / 1000, hT⟩ (0 : Fin 2) = (i 0).val / 1000 := e0
  refine ⟨⟨(i 0).val / 1000, hT⟩, flush0_18 _, ?_⟩
  rw [mem_blk18]
  intro a
  match a with
  | ⟨0, _⟩ =>
    show win0_18.index ⟨(i 0).val / 1000, hT⟩ (0 : Fin 2) * 1000 ≤ (i 0).val
      ∧ (i 0).val < win0_18.index ⟨(i 0).val / 1000, hT⟩ (0 : Fin 2) * 1000 + 1000
    omega
  | ⟨1, _⟩ =>
    show win0_18.index ⟨(i 0).val / 1000, hT⟩ (1 : Fin 2) * 256 ≤ (i 1).val
      ∧ (i 1).val < win0_18.index ⟨(i 0).val / 1000, hT⟩ (1 : Fin 2) * 256 + 256
    omega

/-- After the run the whole array is `lin 15` of the argument arrays. -/
theorem final18 (c : Dev nD) :
    (dats m 0 c).arrAt 18 cfg0.N = lin 15 (V m c main_arg0) (V m c main_arg1) (V m c main_arg2) :=
  (dats m 0 c).arrAt_eq_of_cover 18 (lin 15 (V m c main_arg0) (V m c main_arg1) (V m c main_arg2))
    (fun t _ => flushed18_eq m c t) cover18

/-! ## Direction 16 (output window 19) -/

/-- The output window's block index at point `t` is (t, 0): point `t` writes rows 1000·t … 1000·t + 999. -/
theorem idx_out19 : ∀ t : Fin cfg0.N, win0_19.index t (0 : Fin 2) = t.val ∧ win0_19.index t (1 : Fin 2) = 0 :=
  (by decide +kernel : ∀ t : Fin grid0.N, _)

/-- What point `t` writes back is block `t` of `lin 16` of the argument arrays. -/
theorem flushed19_eq (c : Dev nD) (t : Fin cfg0.N) :
    (dats m 0 c).flushed 19 t
      = ((cfg0.win 19).blk t).view.read (Elt Ideal) (lin 16 (V m c main_arg0) (V m c main_arg1) (V m c main_arg2)) := by
  rw [Cert.KernelIdeal.Value.flushed19]
  unfold out0_19
  rw [View.canon_unit_zero zero_offsets, pay1_eq]
  obtain ⟨e0, e1⟩ := idx_out19 t
  funext j
  exact point_entry m 16 c t _ _ _ _ rfl rfl rfl rfl rfl j (((cfg0.win 19).blk t).view.emb j)
    (by show win0_19.index t (0 : Fin 2) * 1000 + 1 * (j 0).val = t.val * 1000 + (j 0).val; omega)
    (by show win0_19.index t (1 : Fin 2) * 256 + 1 * (j 1).val = (j 1).val; omega)

/-- An index of the array lies in point `t`'s block iff each coordinate lies in the block's range on its axis. -/
theorem mem_blk19 (t : Fin cfg0.N) (i : S10000x256.Idx) :
    i ∈ ((cfg0.win 19).blk t).view.set ↔ ∀ a : Fin 2, win0_19.index t a * S1000x256.size a ≤ (i a).val
      ∧ (i a).val < win0_19.index t a * S1000x256.size a + S1000x256.size a := by
  show i ∈ ((View.whole main_v0_16).slice (win0_19.rect t)).set ↔ _
  rw [View.set_slice_whole, Rect.mem_set_unit]
  exact Iff.rfl

/-- Row `r` is written by point `r / 1000`: the ten blocks tile the array. -/
theorem cover19 (i : S10000x256.Idx) :
    ∃ t : Fin cfg0.N, (cfg0.win 19).flush t = true ∧ i ∈ ((cfg0.win 19).blk t).view.set := by
  have hi0 : (i 0).val < 10000 := (i 0).isLt
  have hi1 : (i 1).val < 256 := (i 1).isLt
  have hT : (i 0).val / 1000 < 10 := by omega
  obtain ⟨e0, e1⟩ := idx_out19 ⟨(i 0).val / 1000, hT⟩
  have e0' : win0_19.index ⟨(i 0).val / 1000, hT⟩ (0 : Fin 2) = (i 0).val / 1000 := e0
  refine ⟨⟨(i 0).val / 1000, hT⟩, flush0_19 _, ?_⟩
  rw [mem_blk19]
  intro a
  match a with
  | ⟨0, _⟩ =>
    show win0_19.index ⟨(i 0).val / 1000, hT⟩ (0 : Fin 2) * 1000 ≤ (i 0).val
      ∧ (i 0).val < win0_19.index ⟨(i 0).val / 1000, hT⟩ (0 : Fin 2) * 1000 + 1000
    omega
  | ⟨1, _⟩ =>
    show win0_19.index ⟨(i 0).val / 1000, hT⟩ (1 : Fin 2) * 256 ≤ (i 1).val
      ∧ (i 1).val < win0_19.index ⟨(i 0).val / 1000, hT⟩ (1 : Fin 2) * 256 + 256
    omega

/-- After the run the whole array is `lin 16` of the argument arrays. -/
theorem final19 (c : Dev nD) :
    (dats m 0 c).arrAt 19 cfg0.N = lin 16 (V m c main_arg0) (V m c main_arg1) (V m c main_arg2) :=
  (dats m 0 c).arrAt_eq_of_cover 19 (lin 16 (V m c main_arg0) (V m c main_arg1) (V m c main_arg2))
    (fun t _ => flushed19_eq m c t) cover19

end Cert.LinearStack

end
-- ==== Proof.KernelRun.lean ====
/-
  The idealized kernel's run, read: every weakly fair execution terminates with each of the seventeen result arrays
  at `lin k` of the argument arrays as launched, and the arguments unchanged — the generated run, with each output
  array after the run replaced by the whole-array function its ten blocks make up.
-/
import proofs.«176759_g40656160424520_cont_8to1_b_390_8_alg».proof.Proof.Blocks0
import proofs.«176759_g40656160424520_cont_8to1_b_390_8_alg».proof.Proof.Blocks1
import proofs.«176759_g40656160424520_cont_8to1_b_390_8_alg».proof.Proof.Blocks2

noncomputable section

namespace Cert.LinearStack

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg)

theorem kernel_run : θ_run defs (onTc (τ := τ) (main (F := Ideal))) ⟨m, fun _ => 0, ρ⟩ fun r => ∀ c : Dev nD,
      r.2.mem ((c : Thread nD τ).loc main_v0_0) = lin 0 (V m c main_arg0) (V m c main_arg1) (V m c main_arg2)
      ∧ r.2.mem ((c : Thread nD τ).loc main_v0_1) = lin 1 (V m c main_arg0) (V m c main_arg1) (V m c main_arg2)
      ∧ r.2.mem ((c : Thread nD τ).loc main_v0_2) = lin 2 (V m c main_arg0) (V m c main_arg1) (V m c main_arg2)
      ∧ r.2.mem ((c : Thread nD τ).loc main_v0_3) = lin 3 (V m c main_arg0) (V m c main_arg1) (V m c main_arg2)
      ∧ r.2.mem ((c : Thread nD τ).loc main_v0_4) = lin 4 (V m c main_arg0) (V m c main_arg1) (V m c main_arg2)
      ∧ r.2.mem ((c : Thread nD τ).loc main_v0_5) = lin 5 (V m c main_arg0) (V m c main_arg1) (V m c main_arg2)
      ∧ r.2.mem ((c : Thread nD τ).loc main_v0_6) = lin 6 (V m c main_arg0) (V m c main_arg1) (V m c main_arg2)
      ∧ r.2.mem ((c : Thread nD τ).loc main_v0_7) = lin 7 (V m c main_arg0) (V m c main_arg1) (V m c main_arg2)
      ∧ r.2.mem ((c : Thread nD τ).loc main_v0_8) = lin 8 (V m c main_arg0) (V m c main_arg1) (V m c main_arg2)
      ∧ r.2.mem ((c : Thread nD τ).loc main_v0_9) = lin 9 (V m c main_arg0) (V m c main_arg1) (V m c main_arg2)
      ∧ r.2.mem ((c : Thread nD τ).loc main_v0_10) = lin 10 (V m c main_arg0) (V m c main_arg1) (V m c main_arg2)
      ∧ r.2.mem ((c : Thread nD τ).loc main_v0_11) = lin 11 (V m c main_arg0) (V m c main_arg1) (V m c main_arg2)
      ∧ r.2.mem ((c : Thread nD τ).loc main_v0_12) = lin 12 (V m c main_arg0) (V m c main_arg1) (V m c main_arg2)
      ∧ r.2.mem ((c : Thread nD τ).loc main_v0_13) = lin 13 (V m c main_arg0) (V m c main_arg1) (V m c main_arg2)
      ∧ r.2.mem ((c : Thread nD τ).loc main_v0_14) = lin 14 (V m c main_arg0) (V m c main_arg1) (V m c main_arg2)
      ∧ r.2.mem ((c : Thread nD τ).loc main_v0_15) = lin 15 (V m c main_arg0) (V m c main_arg1) (V m c main_arg2)
      ∧ r.2.mem ((c : Thread nD τ).loc main_v0_16) = lin 16 (V m c main_arg0) (V m c main_arg1) (V m c main_arg2)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => by
      obtain ⟨h0, h1, h2, h3, h4, h5, h6, h7, h8, h9, h10, h11, h12, h13, h14, h15, h16, ha0, ha1, ha2⟩ := h c
      exact ⟨h0.trans (final3 m c),
        h1.trans (final4 m c),
        h2.trans (final5 m c),
        h3.trans (final6 m c),
        h4.trans (final7 m c),
        h5.trans (final8 m c),
        h6.trans (final9 m c),
        h7.trans (final10 m c),
        h8.trans (final11 m c),
        h9.trans (final12 m c),
        h10.trans (final13 m c),
        h11.trans (final14 m c),
        h12.trans (final15 m c),
        h13.trans (final16 m c),
        h14.trans (final17 m c),
        h15.trans (final18 m c),
        h16.trans (final19 m c),
        ha0, ha1, ha2⟩)
    (Cert.KernelIdeal.Value.run_blocks m ρ)

end Cert.LinearStack

end
-- ==== Proof.ReferenceEntry.lean ====
/-
  The reference, one direction at a time.

  The reference contracts the weight stack with the input in ONE product, v0[k, o, n] = Σ_i w[k, o, i] · x[n, i], swaps
  the last two axes, adds the bias stack broadcast over the rows, and then cuts the [17, 10000, 256] result into its
  seventeen [10000, 256] slices. Entry (k, n, o) of the stack is Σ_i x[n, i] · w[k, o, i] + b[k, o] (`stack_entry`: the
  two factors of each term commuted), and slice `k` read at (n, o) is the stack at (k, n, o): each result is `lin k`.
-/
import proofs.«176759_g40656160424520_cont_8to1_b_390_8_alg».proof.Proof.Gen.ReferenceIdeal.Read
import proofs.«176759_g40656160424520_cont_8to1_b_390_8_alg».proof.Proof.LinearStack

noncomputable section

namespace Cert.LinearStack.Reference

open Cert.ReferenceIdeal Cert.ReferenceIdeal.Gen Cert.ReferenceIdeal.Read Idealize.ShloMosaic
open Idealize.ShloMosaic.ValueIdx

variable (X : Vec Ideal S10000x256 .f32) (W : Vec Ideal S17x256x256 .f32) (B : Vec Ideal S17x256 .f32)

/-- The whole stack at (k, n, o). -/
theorem stack_entry (k : Fin 17) (n : Fin 10000) (o : Fin 256) :
    val_main_v4 (F := Ideal) X W B (ix3 k n o) = (∑ j : Fin 256, X (ix2 n j) * W (ix3 k o j)) + B (ix2 k o) := by
  rw [val_main_v4_apply, val_main_v1_apply, val_main_v0_apply, val_main_v3_apply, val_main_v2_apply]
  show (∑ j : Fin 256, W (lidx_main_v0 (idx_main_v1 (ix3 k n o)) j) * X (ridx_main_v0 (idx_main_v1 (ix3 k n o)) j))
      + B (idx_main_v2 (idx_main_v3 (ix3 k n o))) = _
  refine congrArg₂ (· + ·) (Finset.sum_congr rfl fun j _ => ?_) ?_
  · rw [mul_comm]
    refine congrArg₂ (· * ·) (congrArg X (funext fun a => Fin.ext ?_)) (congrArg W (funext fun a => Fin.ext ?_))
    · match a with
      | ⟨0, _⟩ => rfl
      | ⟨1, _⟩ => rfl
    · match a with
      | ⟨0, _⟩ => rfl
      | ⟨1, _⟩ => rfl
      | ⟨2, _⟩ => rfl
  · refine congrArg B (funext fun a => Fin.ext ?_)
    match a with
    | ⟨0, _⟩ => rfl
    | ⟨1, _⟩ => rfl

/-- Direction 0: the slice at 0 of the stack, with its unit axis dropped, is `lin 0`. -/
theorem out0 : val_main_v6 (F := Ideal) X W B = Cert.LinearStack.lin 0 X W B := by
  funext i
  obtain ⟨n, o, rfl⟩ : ∃ (n : Fin 10000) (o : Fin 256), i = ix2 n o := ⟨i 0, i 1, eq_ix2 i⟩
  have h0 : n.val < 10000 := n.isLt
  have h1 : o.val < 256 := o.isLt
  have e : idx_main_v5 (idx_main_v6 (ix2 n o)) = ix3 (0 : Fin 17) n o := funext fun a => Fin.ext (by
    match a with
    | ⟨0, _⟩ => rfl
    | ⟨1, _⟩ => show (n.val * 256 + o.val) / 256 % 10000 = n.val; omega
    | ⟨2, _⟩ => show (n.val * 256 + o.val) % 256 = o.val; omega)
  rw [val_main_v6_apply, val_main_v5_apply, e, stack_entry]
  rfl

/-- Direction 1: the slice at 1 of the stack, with its unit axis dropped, is `lin 1`. -/
theorem out1 : val_main_v8 (F := Ideal) X W B = Cert.LinearStack.lin 1 X W B := by
  funext i
  obtain ⟨n, o, rfl⟩ : ∃ (n : Fin 10000) (o : Fin 256), i = ix2 n o := ⟨i 0, i 1, eq_ix2 i⟩
  have h0 : n.val < 10000 := n.isLt
  have h1 : o.val < 256 := o.isLt
  have e : idx_main_v7 (idx_main_v8 (ix2 n o)) = ix3 (1 : Fin 17) n o := funext fun a => Fin.ext (by
    match a with
    | ⟨0, _⟩ => rfl
    | ⟨1, _⟩ => show (n.val * 256 + o.val) / 256 % 10000 = n.val; omega
    | ⟨2, _⟩ => show (n.val * 256 + o.val) % 256 = o.val; omega)
  rw [val_main_v8_apply, val_main_v7_apply, e, stack_entry]
  rfl

/-- Direction 2: the slice at 2 of the stack, with its unit axis dropped, is `lin 2`. -/
theorem out2 : val_main_v10 (F := Ideal) X W B = Cert.LinearStack.lin 2 X W B := by
  funext i
  obtain ⟨n, o, rfl⟩ : ∃ (n : Fin 10000) (o : Fin 256), i = ix2 n o := ⟨i 0, i 1, eq_ix2 i⟩
  have h0 : n.val < 10000 := n.isLt
  have h1 : o.val < 256 := o.isLt
  have e : idx_main_v9 (idx_main_v10 (ix2 n o)) = ix3 (2 : Fin 17) n o := funext fun a => Fin.ext (by
    match a with
    | ⟨0, _⟩ => rfl
    | ⟨1, _⟩ => show (n.val * 256 + o.val) / 256 % 10000 = n.val; omega
    | ⟨2, _⟩ => show (n.val * 256 + o.val) % 256 = o.val; omega)
  rw [val_main_v10_apply, val_main_v9_apply, e, stack_entry]
  rfl

/-- Direction 3: the slice at 3 of the stack, with its unit axis dropped, is `lin 3`. -/
theorem out3 : val_main_v12 (F := Ideal) X W B = Cert.LinearStack.lin 3 X W B := by
  funext i
  obtain ⟨n, o, rfl⟩ : ∃ (n : Fin 10000) (o : Fin 256), i = ix2 n o := ⟨i 0, i 1, eq_ix2 i⟩
  have h0 : n.val < 10000 := n.isLt
  have h1 : o.val < 256 := o.isLt
  have e : idx_main_v11 (idx_main_v12 (ix2 n o)) = ix3 (3 : Fin 17) n o := funext fun a => Fin.ext (by
    match a with
    | ⟨0, _⟩ => rfl
    | ⟨1, _⟩ => show (n.val * 256 + o.val) / 256 % 10000 = n.val; omega
    | ⟨2, _⟩ => show (n.val * 256 + o.val) % 256 = o.val; omega)
  rw [val_main_v12_apply, val_main_v11_apply, e, stack_entry]
  rfl

/-- Direction 4: the slice at 4 of the stack, with its unit axis dropped, is `lin 4`. -/
theorem out4 : val_main_v14 (F := Ideal) X W B = Cert.LinearStack.lin 4 X W B := by
  funext i
  obtain ⟨n, o, rfl⟩ : ∃ (n : Fin 10000) (o : Fin 256), i = ix2 n o := ⟨i 0, i 1, eq_ix2 i⟩
  have h0 : n.val < 10000 := n.isLt
  have h1 : o.val < 256 := o.isLt
  have e : idx_main_v13 (idx_main_v14 (ix2 n o)) = ix3 (4 : Fin 17) n o := funext fun a => Fin.ext (by
    match a with
    | ⟨0, _⟩ => rfl
    | ⟨1, _⟩ => show (n.val * 256 + o.val) / 256 % 10000 = n.val; omega
    | ⟨2, _⟩ => show (n.val * 256 + o.val) % 256 = o.val; omega)
  rw [val_main_v14_apply, val_main_v13_apply, e, stack_entry]
  rfl

/-- Direction 5: the slice at 5 of the stack, with its unit axis dropped, is `lin 5`. -/
theorem out5 : val_main_v16 (F := Ideal) X W B = Cert.LinearStack.lin 5 X W B := by
  funext i
  obtain ⟨n, o, rfl⟩ : ∃ (n : Fin 10000) (o : Fin 256), i = ix2 n o := ⟨i 0, i 1, eq_ix2 i⟩
  have h0 : n.val < 10000 := n.isLt
  have h1 : o.val < 256 := o.isLt
  have e : idx_main_v15 (idx_main_v16 (ix2 n o)) = ix3 (5 : Fin 17) n o := funext fun a => Fin.ext (by
    match a with
    | ⟨0, _⟩ => rfl
    | ⟨1, _⟩ => show (n.val * 256 + o.val) / 256 % 10000 = n.val; omega
    | ⟨2, _⟩ => show (n.val * 256 + o.val) % 256 = o.val; omega)
  rw [val_main_v16_apply, val_main_v15_apply, e, stack_entry]
  rfl

/-- Direction 6: the slice at 6 of the stack, with its unit axis dropped, is `lin 6`. -/
theorem out6 : val_main_v18 (F := Ideal) X W B = Cert.LinearStack.lin 6 X W B := by
  funext i
  obtain ⟨n, o, rfl⟩ : ∃ (n : Fin 10000) (o : Fin 256), i = ix2 n o := ⟨i 0, i 1, eq_ix2 i⟩
  have h0 : n.val < 10000 := n.isLt
  have h1 : o.val < 256 := o.isLt
  have e : idx_main_v17 (idx_main_v18 (ix2 n o)) = ix3 (6 : Fin 17) n o := funext fun a => Fin.ext (by
    match a with
    | ⟨0, _⟩ => rfl
    | ⟨1, _⟩ => show (n.val * 256 + o.val) / 256 % 10000 = n.val; omega
    | ⟨2, _⟩ => show (n.val * 256 + o.val) % 256 = o.val; omega)
  rw [val_main_v18_apply, val_main_v17_apply, e, stack_entry]
  rfl

/-- Direction 7: the slice at 7 of the stack, with its unit axis dropped, is `lin 7`. -/
theorem out7 : val_main_v20 (F := Ideal) X W B = Cert.LinearStack.lin 7 X W B := by
  funext i
  obtain ⟨n, o, rfl⟩ : ∃ (n : Fin 10000) (o : Fin 256), i = ix2 n o := ⟨i 0, i 1, eq_ix2 i⟩
  have h0 : n.val < 10000 := n.isLt
  have h1 : o.val < 256 := o.isLt
  have e : idx_main_v19 (idx_main_v20 (ix2 n o)) = ix3 (7 : Fin 17) n o := funext fun a => Fin.ext (by
    match a with
    | ⟨0, _⟩ => rfl
    | ⟨1, _⟩ => show (n.val * 256 + o.val) / 256 % 10000 = n.val; omega
    | ⟨2, _⟩ => show (n.val * 256 + o.val) % 256 = o.val; omega)
  rw [val_main_v20_apply, val_main_v19_apply, e, stack_entry]
  rfl

/-- Direction 8: the slice at 8 of the stack, with its unit axis dropped, is `lin 8`. -/
theorem out8 : val_main_v22 (F := Ideal) X W B = Cert.LinearStack.lin 8 X W B := by
  funext i
  obtain ⟨n, o, rfl⟩ : ∃ (n : Fin 10000) (o : Fin 256), i = ix2 n o := ⟨i 0, i 1, eq_ix2 i⟩
  have h0 : n.val < 10000 := n.isLt
  have h1 : o.val < 256 := o.isLt
  have e : idx_main_v21 (idx_main_v22 (ix2 n o)) = ix3 (8 : Fin 17) n o := funext fun a => Fin.ext (by
    match a with
    | ⟨0, _⟩ => rfl
    | ⟨1, _⟩ => show (n.val * 256 + o.val) / 256 % 10000 = n.val; omega
    | ⟨2, _⟩ => show (n.val * 256 + o.val) % 256 = o.val; omega)
  rw [val_main_v22_apply, val_main_v21_apply, e, stack_entry]
  rfl

/-- Direction 9: the slice at 9 of the stack, with its unit axis dropped, is `lin 9`. -/
theorem out9 : val_main_v24 (F := Ideal) X W B = Cert.LinearStack.lin 9 X W B := by
  funext i
  obtain ⟨n, o, rfl⟩ : ∃ (n : Fin 10000) (o : Fin 256), i = ix2 n o := ⟨i 0, i 1, eq_ix2 i⟩
  have h0 : n.val < 10000 := n.isLt
  have h1 : o.val < 256 := o.isLt
  have e : idx_main_v23 (idx_main_v24 (ix2 n o)) = ix3 (9 : Fin 17) n o := funext fun a => Fin.ext (by
    match a with
    | ⟨0, _⟩ => rfl
    | ⟨1, _⟩ => show (n.val * 256 + o.val) / 256 % 10000 = n.val; omega
    | ⟨2, _⟩ => show (n.val * 256 + o.val) % 256 = o.val; omega)
  rw [val_main_v24_apply, val_main_v23_apply, e, stack_entry]
  rfl

/-- Direction 10: the slice at 10 of the stack, with its unit axis dropped, is `lin 10`. -/
theorem out10 : val_main_v26 (F := Ideal) X W B = Cert.LinearStack.lin 10 X W B := by
  funext i
  obtain ⟨n, o, rfl⟩ : ∃ (n : Fin 10000) (o : Fin 256), i = ix2 n o := ⟨i 0, i 1, eq_ix2 i⟩
  have h0 : n.val < 10000 := n.isLt
  have h1 : o.val < 256 := o.isLt
  have e : idx_main_v25 (idx_main_v26 (ix2 n o)) = ix3 (10 : Fin 17) n o := funext fun a => Fin.ext (by
    match a with
    | ⟨0, _⟩ => rfl
    | ⟨1, _⟩ => show (n.val * 256 + o.val) / 256 % 10000 = n.val; omega
    | ⟨2, _⟩ => show (n.val * 256 + o.val) % 256 = o.val; omega)
  rw [val_main_v26_apply, val_main_v25_apply, e, stack_entry]
  rfl

/-- Direction 11: the slice at 11 of the stack, with its unit axis dropped, is `lin 11`. -/
theorem out11 : val_main_v28 (F := Ideal) X W B = Cert.LinearStack.lin 11 X W B := by
  funext i
  obtain ⟨n, o, rfl⟩ : ∃ (n : Fin 10000) (o : Fin 256), i = ix2 n o := ⟨i 0, i 1, eq_ix2 i⟩
  have h0 : n.val < 10000 := n.isLt
  have h1 : o.val < 256 := o.isLt
  have e : idx_main_v27 (idx_main_v28 (ix2 n o)) = ix3 (11 : Fin 17) n o := funext fun a => Fin.ext (by
    match a with
    | ⟨0, _⟩ => rfl
    | ⟨1, _⟩ => show (n.val * 256 + o.val) / 256 % 10000 = n.val; omega
    | ⟨2, _⟩ => show (n.val * 256 + o.val) % 256 = o.val; omega)
  rw [val_main_v28_apply, val_main_v27_apply, e, stack_entry]
  rfl

/-- Direction 12: the slice at 12 of the stack, with its unit axis dropped, is `lin 12`. -/
theorem out12 : val_main_v30 (F := Ideal) X W B = Cert.LinearStack.lin 12 X W B := by
  funext i
  obtain ⟨n, o, rfl⟩ : ∃ (n : Fin 10000) (o : Fin 256), i = ix2 n o := ⟨i 0, i 1, eq_ix2 i⟩
  have h0 : n.val < 10000 := n.isLt
  have h1 : o.val < 256 := o.isLt
  have e : idx_main_v29 (idx_main_v30 (ix2 n o)) = ix3 (12 : Fin 17) n o := funext fun a => Fin.ext (by
    match a with
    | ⟨0, _⟩ => rfl
    | ⟨1, _⟩ => show (n.val * 256 + o.val) / 256 % 10000 = n.val; omega
    | ⟨2, _⟩ => show (n.val * 256 + o.val) % 256 = o.val; omega)
  rw [val_main_v30_apply, val_main_v29_apply, e, stack_entry]
  rfl

/-- Direction 13: the slice at 13 of the stack, with its unit axis dropped, is `lin 13`. -/
theorem out13 : val_main_v32 (F := Ideal) X W B = Cert.LinearStack.lin 13 X W B := by
  funext i
  obtain ⟨n, o, rfl⟩ : ∃ (n : Fin 10000) (o : Fin 256), i = ix2 n o := ⟨i 0, i 1, eq_ix2 i⟩
  have h0 : n.val < 10000 := n.isLt
  have h1 : o.val < 256 := o.isLt
  have e : idx_main_v31 (idx_main_v32 (ix2 n o)) = ix3 (13 : Fin 17) n o := funext fun a => Fin.ext (by
    match a with
    | ⟨0, _⟩ => rfl
    | ⟨1, _⟩ => show (n.val * 256 + o.val) / 256 % 10000 = n.val; omega
    | ⟨2, _⟩ => show (n.val * 256 + o.val) % 256 = o.val; omega)
  rw [val_main_v32_apply, val_main_v31_apply, e, stack_entry]
  rfl

/-- Direction 14: the slice at 14 of the stack, with its unit axis dropped, is `lin 14`. -/
theorem out14 : val_main_v34 (F := Ideal) X W B = Cert.LinearStack.lin 14 X W B := by
  funext i
  obtain ⟨n, o, rfl⟩ : ∃ (n : Fin 10000) (o : Fin 256), i = ix2 n o := ⟨i 0, i 1, eq_ix2 i⟩
  have h0 : n.val < 10000 := n.isLt
  have h1 : o.val < 256 := o.isLt
  have e : idx_main_v33 (idx_main_v34 (ix2 n o)) = ix3 (14 : Fin 17) n o := funext fun a => Fin.ext (by
    match a with
    | ⟨0, _⟩ => rfl
    | ⟨1, _⟩ => show (n.val * 256 + o.val) / 256 % 10000 = n.val; omega
    | ⟨2, _⟩ => show (n.val * 256 + o.val) % 256 = o.val; omega)
  rw [val_main_v34_apply, val_main_v33_apply, e, stack_entry]
  rfl

/-- Direction 15: the slice at 15 of the stack, with its unit axis dropped, is `lin 15`. -/
theorem out15 : val_main_v36 (F := Ideal) X W B = Cert.LinearStack.lin 15 X W B := by
  funext i
  obtain ⟨n, o, rfl⟩ : ∃ (n : Fin 10000) (o : Fin 256), i = ix2 n o := ⟨i 0, i 1, eq_ix2 i⟩
  have h0 : n.val < 10000 := n.isLt
  have h1 : o.val < 256 := o.isLt
  have e : idx_main_v35 (idx_main_v36 (ix2 n o)) = ix3 (15 : Fin 17) n o := funext fun a => Fin.ext (by
    match a with
    | ⟨0, _⟩ => rfl
    | ⟨1, _⟩ => show (n.val * 256 + o.val) / 256 % 10000 = n.val; omega
    | ⟨2, _⟩ => show (n.val * 256 + o.val) % 256 = o.val; omega)
  rw [val_main_v36_apply, val_main_v35_apply, e, stack_entry]
  rfl

/-- Direction 16: the slice at 16 of the stack, with its unit axis dropped, is `lin 16`. -/
theorem out16 : val_main_v38 (F := Ideal) X W B = Cert.LinearStack.lin 16 X W B := by
  funext i
  obtain ⟨n, o, rfl⟩ : ∃ (n : Fin 10000) (o : Fin 256), i = ix2 n o := ⟨i 0, i 1, eq_ix2 i⟩
  have h0 : n.val < 10000 := n.isLt
  have h1 : o.val < 256 := o.isLt
  have e : idx_main_v37 (idx_main_v38 (ix2 n o)) = ix3 (16 : Fin 17) n o := funext fun a => Fin.ext (by
    match a with
    | ⟨0, _⟩ => rfl
    | ⟨1, _⟩ => show (n.val * 256 + o.val) / 256 % 10000 = n.val; omega
    | ⟨2, _⟩ => show (n.val * 256 + o.val) % 256 = o.val; omega)
  rw [val_main_v38_apply, val_main_v37_apply, e, stack_entry]
  rfl

end Cert.LinearStack.Reference

end
-- ==== Proof.lean ====
/-
  Seventeen affine layers over one shared input: out_k = x · w[k]ᵀ + b[k], k = 0 … 16, with x of shape [10000, 256],
  w of shape [17, 256, 256] and b of shape [17, 256].

  The kernel walks the 10000 rows in ten blocks of 1000. At each block it multiplies, on the matrix unit and into a zero
  accumulator, the block of inputs by each of the seventeen [256, 256] weight slices — contracting the LAST axis of
  both operands, so no transpose is ever formed — adds the matching bias row broadcast down the block, and writes the
  result into that direction's own output array. The reference contracts the whole weight stack with the input in one
  product, swaps the last two axes, adds the bias stack broadcast over the rows, and cuts the result into its seventeen
  slices.

  Over the extended reals both are, entry by entry, the one function
      lin k x w b [n, o] = Σ_i x[n, i] · w[k, o, i] + b[k, o]        (Proof/LinearStack.lean):
  on the kernel's side the ten blocks of each output array are disjoint, tile the array, and each is a block of `lin k`
  (Proof/PointEntry.lean, Proof/Blocks0–2.lean, Proof/KernelRun.lean); on the reference's side the stack at (k, n, o) is
  the same sum with the two factors of each term commuted, and slice `k` is the stack at (k, ·, ·)
  (Proof/ReferenceEntry.lean). Only commutativity of the product is used, which holds at the infinities too: the
  finiteness of the inputs is never needed. The idealization rewrote nothing, so there is nothing to preserve.
-/
import proofs.«176759_g40656160424520_cont_8to1_b_390_8_alg».proof.Defs
import proofs.«176759_g40656160424520_cont_8to1_b_390_8_alg».proof.Proof.Gen.Kernel
import proofs.«176759_g40656160424520_cont_8to1_b_390_8_alg».proof.Proof.Gen.Kernel.Skeleton
import proofs.«176759_g40656160424520_cont_8to1_b_390_8_alg».proof.Proof.Gen.Kernel.Launch
import proofs.«176759_g40656160424520_cont_8to1_b_390_8_alg».proof.Proof.Gen.Kernel.Points
import proofs.«176759_g40656160424520_cont_8to1_b_390_8_alg».proof.Proof.Gen.Kernel.Frame
import proofs.«176759_g40656160424520_cont_8to1_b_390_8_alg».proof.Proof.Gen.KernelIdeal
import proofs.«176759_g40656160424520_cont_8to1_b_390_8_alg».proof.Proof.Gen.KernelIdeal.Skeleton
import proofs.«176759_g40656160424520_cont_8to1_b_390_8_alg».proof.Proof.Gen.KernelIdeal.Launch
import proofs.«176759_g40656160424520_cont_8to1_b_390_8_alg».proof.Proof.Gen.KernelIdeal.Points
import proofs.«176759_g40656160424520_cont_8to1_b_390_8_alg».proof.Proof.Gen.KernelIdeal.Frame
import proofs.«176759_g40656160424520_cont_8to1_b_390_8_alg».proof.Proof.Gen.ReferenceIdeal
import proofs.«176759_g40656160424520_cont_8to1_b_390_8_alg».proof.Proof.Gen.Pre_finite_inputs
import proofs.«176759_g40656160424520_cont_8to1_b_390_8_alg».proof.Proof.Gen.KernelIdeal.Value
import proofs.«176759_g40656160424520_cont_8to1_b_390_8_alg».proof.Proof.Gen.ReferenceIdeal.Run
import proofs.«176759_g40656160424520_cont_8to1_b_390_8_alg».proof.Proof.Gen.ReferenceIdeal.Read
import proofs.«176759_g40656160424520_cont_8to1_b_390_8_alg».proof.Proof.KernelRun
import proofs.«176759_g40656160424520_cont_8to1_b_390_8_alg».proof.Proof.ReferenceEntry
import Idealize.ShloMosaic.Adequacy
import Idealize.ShloMosaic.Init

noncomputable section

namespace Cert.Proof

open Idealize.ShloMosaic Idealize.SL.Sem

/-- The three programs run, fault nowhere, and leave their arguments as they found them. -/
theorem frame_kernel : Cert.frame_Kernel := fun m ρ _ => Cert.Kernel.Gen.frame m ρ

theorem frame_kernel_ideal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2.2.2.2.2.2.2.2.2.2.2.2.2.2.2.2.2)
    (Cert.ReferenceIdeal.Value.run (F := Ideal) m ρ)

/-- Direction `k`'s result as a function of the kernel's argument arrays as launched. -/
abbrev result (m : (ℓ : Loc Cert.KernelIdeal.nD Cert.KernelIdeal.τ Cert.KernelIdeal.sig) → Buf (Elt Ideal) ℓ)
    (k : Fin 17) (c : Dev Cert.KernelIdeal.nD) : Vec Ideal Cert.KernelIdeal.S10000x256 .f32 :=
  Cert.LinearStack.lin k (Cert.KernelIdeal.Gen.V m c Cert.KernelIdeal.main_arg0)
    (Cert.KernelIdeal.Gen.V m c Cert.KernelIdeal.main_arg1) (Cert.KernelIdeal.Gen.V m c Cert.KernelIdeal.main_arg2)

/-- Both idealized programs end with direction `k`'s array at `lin k` of the (agreeing) arguments. -/
theorem algebraic : Cert.algebraic_KernelIdeal_ReferenceIdeal := by
  intro m ρ m' ρ' _ hagree
  refine ⟨result m 0, result m 1, result m 2, result m 3, result m 4, result m 5, result m 6, result m 7, result m 8, result m 9, result m 10, result m 11, result m 12, result m 13, result m 14, result m 15, result m 16,
    Cert.LinearStack.kernel_run m ρ, ?_⟩
  refine (θ_run Cert.ReferenceIdeal.defs _ _).mono (fun _ h c => ?_)
    (Cert.ReferenceIdeal.Value.run (F := Ideal) m' ρ')
  obtain ⟨h0, h1, h2, h3, h4, h5, h6, h7, h8, h9, h10, h11, h12, h13, h14, h15, h16, ha0, ha1, ha2⟩ := h c
  obtain ⟨e0, e1, e2⟩ := hagree c
  refine ⟨h0.trans ((Cert.LinearStack.Reference.out0 (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2))).trans ?_),
    h1.trans ((Cert.LinearStack.Reference.out1 (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2))).trans ?_),
    h2.trans ((Cert.LinearStack.Reference.out2 (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2))).trans ?_),
    h3.trans ((Cert.LinearStack.Reference.out3 (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2))).trans ?_),
    h4.trans ((Cert.LinearStack.Reference.out4 (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2))).trans ?_),
    h5.trans ((Cert.LinearStack.Reference.out5 (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2))).trans ?_),
    h6.trans ((Cert.LinearStack.Reference.out6 (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2))).trans ?_),
    h7.trans ((Cert.LinearStack.Reference.out7 (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2))).trans ?_),
    h8.trans ((Cert.LinearStack.Reference.out8 (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2))).trans ?_),
    h9.trans ((Cert.LinearStack.Reference.out9 (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2))).trans ?_),
    h10.trans ((Cert.LinearStack.Reference.out10 (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2))).trans ?_),
    h11.trans ((Cert.LinearStack.Reference.out11 (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2))).trans ?_),
    h12.trans ((Cert.LinearStack.Reference.out12 (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2))).trans ?_),
    h13.trans ((Cert.LinearStack.Reference.out13 (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2))).trans ?_),
    h14.trans ((Cert.LinearStack.Reference.out14 (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2))).trans ?_),
    h15.trans ((Cert.LinearStack.Reference.out15 (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2))).trans ?_),
    h16.trans ((Cert.LinearStack.Reference.out16 (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2))).trans ?_),
    ha0, ha1, ha2⟩
  all_goals rw [e0, e1, e2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
